-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S256x128 .f32) (main_arg9 : FVec F S128 .f32) (main_arg10 : FVec F S128x128 .f32) (main_arg11 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x1 .f32) (main_arg7 : FVec F S1 .f32) (main_arg8 : FVec F S256x128 .f32) (main_arg9 : FVec F S128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S256x128 .f32) (main_arg3 : FVec F S128 .f32) (main_arg4 : FVec F S128x128 .f32) (main_arg5 : FVec F S128 .f32) (main_arg6 : FVec F S128x1 .f32) (main_arg7 : FVec F S1 .f32) (main_arg8 : FVec F S256x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S1x1 : Shape := ⟨2, ![1, 1]⟩
abbrev S3200x128 : Shape := ⟨2, ![3200, 128]⟩
abbrev S3200x256 : Shape := ⟨2, ![3200, 256]⟩
abbrev S3200x1 : Shape := ⟨2, ![3200, 1]⟩
abbrev S5000x128 : Shape := ⟨2, ![5000, 128]⟩
abbrev S5000x256 : Shape := ⟨2, ![5000, 256]⟩

abbrev nBuf : Space → Nat
  | .hbm => 54
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000x128, .bf16⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .bf16⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .bf16⟩
  | .hbm, ⟨35, _⟩ => ⟨S256x128, .bf16⟩
  | .hbm, ⟨36, _⟩ => ⟨S128x128, .bf16⟩
  | .hbm, ⟨37, _⟩ => ⟨S128x1, .bf16⟩
  | .hbm, ⟨38, _⟩ => ⟨S1x128, .f32⟩
  | .hbm, ⟨39, _⟩ => ⟨S1x128, .f32⟩
  | .hbm, ⟨40, _⟩ => ⟨S1x1, .f32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S256x128, .bf16⟩
  | .hbm, ⟨50, _⟩ => ⟨S128x128, .bf16⟩
  | .hbm, ⟨51, _⟩ => ⟨S1x128, .f32⟩
  | .hbm, ⟨52, _⟩ => ⟨S1x128, .f32⟩
  | .hbm, ⟨53, _⟩ => ⟨S50000x128, .f32⟩
  | .local _ .vmem, ⟨0, _⟩ => ⟨S3200x128, .bf16⟩
  | .local _ .vmem, ⟨1, _⟩ => ⟨S3200x128, .bf16⟩
  | .local _ .vmem, ⟨2, _⟩ => ⟨S3200x128, .bf16⟩
  | .local _ .vmem, ⟨3, _⟩ => ⟨S3200x128, .bf16⟩
  | .local _ .vmem, ⟨4, _⟩ => ⟨S256x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S128x1, .bf16⟩
  | .local _ .vmem, ⟨9, _⟩ => ⟨S1x1, .f32⟩
  | .local _ .vmem, ⟨10, _⟩ => ⟨S3200x128, .f32⟩
  | .local _ .vmem, ⟨11, _⟩ => ⟨S3200x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S256x128, .bf16⟩
  | .local _ .vmem, ⟨17, _⟩ => ⟨S1x128, .f32⟩
  | .local _ .vmem, ⟨18, _⟩ => ⟨S128x128, .bf16⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3200x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  shapeCasts_S1_S1x1 : S1.ShapeCasts S1x1
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  concatenates_S3200x128_S3200x128_S3200x256_d1 : Shape.Concatenates [S3200x128, S3200x128] S3200x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3200x1 : S1x1.Broadcasts S3200x1
  broadcasts_S3200x1_S3200x128 : S3200x1.Broadcasts S3200x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S3200x256_S256x128_S3200x128_1_0_0_1_n_n_wf : DotDims.WF S3200x256 S256x128 S3200x128 [1] [0] [0] [1] [] []
  dot_S3200x128_S128x128_S3200x128_1_0_0_1_n_n_wf : DotDims.WF S3200x128 S128x128 S3200x128 [1] [0] [0] [1] [] []
  dot_S3200x128_S128x1_S3200x1_1_0_0_1_n_n_wf : DotDims.WF S3200x128 S128x1 S3200x1 [1] [0] [0] [1] [] []
  scatter_S50000x128_S800000x1_S800000x128_1_0_0_1_wf : ScatterDims.WF S50000x128 S800000x1 S800000x128 [1] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .bf16 = 32 ∨ (Rect.block (s := S800000x128) S3200x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .bf16 = 32 ∨ (Rect.block (s := S800000x128) S3200x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .bf16 = 32 ∨ (Rect.block (s := S128x1) S128x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3200x128.size a ≤ S800000x128.size a
  hwx0_8 : ∀ i : grid0.Coords, EltTy.bits .f32 = 32 ∨ (Rect.block (s := S800000x128) S3200x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x256_S256x128_S3200x128_1_0_0_1_n_n : DotDims S3200x256 S256x128 S3200x128 where
  lhsContracting := [1]
  rhsContracting := [0]
  lhsNonContracting := [0]
  rhsNonContracting := [1]
  lhsBatch := []
  rhsBatch := []
  wf := dot_S3200x256_S256x128_S3200x128_1_0_0_1_n_n_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x128_S128x1_S3200x1_1_0_0_1_n_n : DotDims S3200x128 S128x1 S3200x1 where
  lhsContracting := [1]
  rhsContracting := [0]
  lhsNonContracting := [0]
  rhsNonContracting := [1]
  lhsBatch := []
  rhsBatch := []
  wf := dot_S3200x128_S128x1_S3200x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v11) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S3200x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S1x1 : Shape := ⟨2, ![1, 1]⟩
abbrev S50000x256 : Shape := ⟨2, ![50000, 256]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x256, .f32⟩
  | .hbm, ⟨35, _⟩ => ⟨S800000x128, .f32⟩
  | .hbm, ⟨36, _⟩ => ⟨S1x128, .f32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S800000x128, .f32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S1x128, .f32⟩
  | .hbm, ⟨50, _⟩ => ⟨S800000x128, .f32⟩
  | .hbm, ⟨51, _⟩ => ⟨S800000x128, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S800000x1, .f32⟩
  | .hbm, ⟨62, _⟩ => ⟨S1x1, .f32⟩
  | .hbm, ⟨63, _⟩ => ⟨S800000x1, .f32⟩
  | .hbm, ⟨64, _⟩ => ⟨S800000x1, .f32⟩
  | .hbm, ⟨65, _⟩ => ⟨S800000x1, .f32⟩
  | .hbm, ⟨66, _⟩ => ⟨S800000x1, .f32⟩
  | .hbm, ⟨67, _⟩ => ⟨S_, .f32⟩
  | .hbm, ⟨68, _⟩ => ⟨S800000x1, .f32⟩
  | .hbm, ⟨69, _⟩ => ⟨S800000x1, .f32⟩
  | .hbm, ⟨70, _⟩ => ⟨S_, .f32⟩
  | .hbm, ⟨71, _⟩ => ⟨S800000x1, .f32⟩
  | .hbm, ⟨72, _⟩ => ⟨S800000x1, .f32⟩
  | .hbm, ⟨73, _⟩ => ⟨S800000x128, .f32⟩
  | .hbm, ⟨74, _⟩ => ⟨S800000x128, .f32⟩
  | .hbm, ⟨75, _⟩ => ⟨S_, .f32⟩
  | .hbm, ⟨76, _⟩ => ⟨S50000x128, .f32⟩
  | .hbm, ⟨77, _⟩ => ⟨S800000x1, .i32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S50000x256, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst : Ref sig .tc := ⟨.hbm, 67, rfl⟩
abbrev main_v35 : Ref sig .tc := ⟨.hbm, 68, rfl⟩
abbrev main_v36 : Ref sig .tc := ⟨.hbm, 69, rfl⟩
abbrev main_cst_3 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_4 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_5 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_call2_v0 : Ref sig .tc := ⟨.hbm, 87, rfl⟩
abbrev main_call2_v1 : Ref sig .tc := ⟨.hbm, 88, rfl⟩
abbrev main_call2_cst : Ref sig .tc := ⟨.hbm, 89, rfl⟩
abbrev main_call2_v2 : Ref sig .tc := ⟨.hbm, 90, rfl⟩
abbrev main_call2_v3 : Ref sig .tc := ⟨.hbm, 91, rfl⟩
abbrev main_call2_cst_0 : Ref sig .tc := ⟨.hbm, 92, rfl⟩
abbrev main_call2_v4 : Ref sig .tc := ⟨.hbm, 93, rfl⟩
abbrev main_call2_v5 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The graph convolution layer as mathematics, on the extended reals.

  An edge e with endpoint feature rows r = h[row e], c = h[col e] gets the message
      m₂ · σ(⟨m₂, a⟩ + α),   m₂ = silu(m₁ · W₂ + b₂),   m₁ = silu([r | c] · W₁ + b₁),
  where silu x = x · σ x and σ is the logistic function; a node n with feature row x and aggregated
  message row g gets
      x + (silu([x | g] · V₁ + d₁) · V₂ + d₂).
  Both are functions of ONE row (pair) only, so a whole array is the row function applied row by row, and a
  block of rows of the array is the same function applied to the block's rows.
-/
import Idealize.ShloMosaic.PureOps.Ideal
import Idealize.ShloMosaic.Lib.ValueIdx

noncomputable section

open scoped BigOperators

namespace Cert.Gcl

open Idealize.ShloMosaic Idealize.ShloMosaic.ValueIdx

/-- `x · σ(x)`. -/
def silu (x : EReal) : EReal := x * Ideal.logistic x

/-- Two rows of length 128 laid side by side: positions below 128 come from the first, the others from the second. -/
def cat (a b : Fin 128 → EReal) (l : Fin 256) : EReal :=
  if h : l.val < 128 then a ⟨l.val, h⟩ else b ⟨l.val - 128, by have := l.isLt; omega⟩

/-- An affine map of a row: `(x · W + b) j = Σ_l x l · W (l, j) + b j`. -/
def lin {K N : ℕ} (x : Fin K → EReal) (W : (⟨2, ![K, N]⟩ : Shape).Idx → EReal) (b : Fin N → EReal) (j : Fin N) : EReal :=
  (∑ l : Fin K, x l * W (ix2 l j)) + b j

/-- First hidden row of an edge: `silu([r | c] · W₁ + b₁)`. -/
def edgeHid1 (xr xc : Fin 128 → EReal) (W1 : (⟨2, ![256, 128]⟩ : Shape).Idx → EReal) (b1 : Fin 128 → EReal) (k : Fin 128) : EReal :=
  silu (lin (cat xr xc) W1 b1 k)

/-- Second hidden row of an edge: `silu(m₁ · W₂ + b₂)`. -/
def edgeHid2 (xr xc : Fin 128 → EReal) (W1 : (⟨2, ![256, 128]⟩ : Shape).Idx → EReal) (b1 : Fin 128 → EReal)
    (W2 : (⟨2, ![128, 128]⟩ : Shape).Idx → EReal) (b2 : Fin 128 → EReal) (k : Fin 128) : EReal :=
  silu (lin (edgeHid1 xr xc W1 b1) W2 b2 k)

/-- The attention gate of an edge: `σ(⟨m₂, a⟩ + α)`. -/
def edgeGate (xr xc : Fin 128 → EReal) (W1 : (⟨2, ![256, 128]⟩ : Shape).Idx → EReal) (b1 : Fin 128 → EReal)
    (W2 : (⟨2, ![128, 128]⟩ : Shape).Idx → EReal) (b2 : Fin 128 → EReal)
    (aW : (⟨2, ![128, 1]⟩ : Shape).Idx → EReal) (ab : EReal) : EReal :=
  Ideal.logistic ((∑ l : Fin 128, edgeHid2 xr xc W1 b1 W2 b2 l * aW (ix2 l (0 : Fin 1))) + ab)

/-- The message row of an edge: the second hidden row times the gate. -/
def edgeRow (xr xc : Fin 128 → EReal) (W1 : (⟨2, ![256, 128]⟩ : Shape).Idx → EReal) (b1 : Fin 128 → EReal)
    (W2 : (⟨2, ![128, 128]⟩ : Shape).Idx → EReal) (b2 : Fin 128 → EReal)
    (aW : (⟨2, ![128, 1]⟩ : Shape).Idx → EReal) (ab : EReal) (j : Fin 128) : EReal :=
  edgeHid2 xr xc W1 b1 W2 b2 j * edgeGate xr xc W1 b1 W2 b2 aW ab

/-- The hidden row of a node: `silu([x | g] · V₁ + d₁)`. -/
def nodeHid (xh xa : Fin 128 → EReal) (W1 : (⟨2, ![256, 128]⟩ : Shape).Idx → EReal) (b1 : Fin 128 → EReal) (k : Fin 128) : EReal :=
  silu (lin (cat xh xa) W1 b1 k)

/-- The updated feature row of a node: the residual `x + (hidden · V₂ + d₂)`. -/
def nodeRow (xh xa : Fin 128 → EReal) (W1 : (⟨2, ![256, 128]⟩ : Shape).Idx → EReal) (b1 : Fin 128 → EReal)
    (W2 : (⟨2, ![128, 128]⟩ : Shape).Idx → EReal) (b2 : Fin 128 → EReal) (j : Fin 128) : EReal :=
  xh j + lin (nodeHid xh xa W1 b1) W2 b2 j

/-- Row `r` of a matrix. -/
def rowOf {R C : ℕ} (x : (⟨2, ![R, C]⟩ : Shape).Idx → EReal) (r : Fin R) : Fin C → EReal := fun l => x (ix2 r l)

/-- A vector as a function of its position. -/
def vecOf {N : ℕ} (b : (⟨1, ![N]⟩ : Shape).Idx → EReal) : Fin N → EReal := fun j => b (ix1 j)

/-- The only row of a one-row matrix. -/
def row0 {N : ℕ} (b : (⟨2, ![1, N]⟩ : Shape).Idx → EReal) : Fin N → EReal := fun j => b (ix2 (0 : Fin 1) j)

/-- All edges' messages: the edge function row by row. -/
def edgeArr {E : ℕ} (hr hc : (⟨2, ![E, 128]⟩ : Shape).Idx → EReal) (W1 : (⟨2, ![256, 128]⟩ : Shape).Idx → EReal) (b1 : Fin 128 → EReal)
    (W2 : (⟨2, ![128, 128]⟩ : Shape).Idx → EReal) (b2 : Fin 128 → EReal)
    (aW : (⟨2, ![128, 1]⟩ : Shape).Idx → EReal) (ab : EReal) : (⟨2, ![E, 128]⟩ : Shape).Idx → EReal :=
  fun i => edgeRow (rowOf hr (i 0)) (rowOf hc (i 0)) W1 b1 W2 b2 aW ab (i 1)

/-- All nodes' updated features: the node function row by row. -/
def nodeArr {n : ℕ} (h agg : (⟨2, ![n, 128]⟩ : Shape).Idx → EReal) (W1 : (⟨2, ![256, 128]⟩ : Shape).Idx → EReal) (b1 : Fin 128 → EReal)
    (W2 : (⟨2, ![128, 128]⟩ : Shape).Idx → EReal) (b2 : Fin 128 → EReal) : (⟨2, ![n, 128]⟩ : Shape).Idx → EReal :=
  fun i => nodeRow (rowOf h (i 0)) (rowOf agg (i 0)) W1 b1 W2 b2 (i 1)

theorem edgeArr_apply {E : ℕ} (hr hc : (⟨2, ![E, 128]⟩ : Shape).Idx → EReal) (W1 : (⟨2, ![256, 128]⟩ : Shape).Idx → EReal) (b1 : Fin 128 → EReal)
    (W2 : (⟨2, ![128, 128]⟩ : Shape).Idx → EReal) (b2 : Fin 128 → EReal)
    (aW : (⟨2, ![128, 1]⟩ : Shape).Idx → EReal) (ab : EReal) (e : Fin E) (j : Fin 128) :
    edgeArr hr hc W1 b1 W2 b2 aW ab (ix2 e j) = edgeRow (rowOf hr e) (rowOf hc e) W1 b1 W2 b2 aW ab j := rfl

theorem nodeArr_apply {n : ℕ} (h agg : (⟨2, ![n, 128]⟩ : Shape).Idx → EReal) (W1 : (⟨2, ![256, 128]⟩ : Shape).Idx → EReal) (b1 : Fin 128 → EReal)
    (W2 : (⟨2, ![128, 128]⟩ : Shape).Idx → EReal) (b2 : Fin 128 → EReal) (r : Fin n) (j : Fin 128) :
    nodeArr h agg W1 b1 W2 b2 (ix2 r j) = nodeRow (rowOf h r) (rowOf agg r) W1 b1 W2 b2 j := rfl

/-- The side-by-side row at a position of the first half. -/
theorem cat_left (a b : Fin 128 → EReal) (l : Fin 256) (l' : Fin 128) (h : l'.val = l.val) : cat a b l = a l' := by
  have hl : l.val < 128 := h ▸ l'.isLt
  unfold cat; rw [dif_pos hl]; exact congrArg a (Fin.ext h.symm)

/-- The side-by-side row at a position of the second half. -/
theorem cat_right (a b : Fin 128 → EReal) (l : Fin 256) (l' : Fin 128) (h : l'.val + 128 = l.val) : cat a b l = b l' := by
  have hl : ¬ l.val < 128 := by omega
  unfold cat; rw [dif_neg hl]; exact congrArg b (Fin.ext (by show l.val - 128 = l'.val; omega))

end Cert.Gcl

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibConcat2.lean ====
/-
  Two matrices joined along one axis, read at an index given by coordinates; and a sum over a range cut in two.

  Two pieces [R, C₁] and [R, C₂] laid side by side along axis 1 read, at (r, g), the first piece at (r, g) when
  column g is one of its own, and the second at (r, g − C₁) otherwise. Two pieces [R₁, C] and [R₂, C] stacked
  along axis 0 read, at (r, g), the first at (r, g) when row r is one of its own, and the second at (r − R₁, g)
  otherwise. The position inside the piece is given as a coordinate of its own with the equation that ties it to
  the joined coordinate, so that no subtraction appears in a statement.

  A sum over a + b positions is the sum over the first a plus the sum over the last b.
-/
import Idealize.ShloMosaic.Lib.Pipeline.Value
import Idealize.ShloMosaic.Lib.ValueIdx

open scoped BigOperators

namespace Cert.LibConcat2

open Idealize.ShloMosaic Idealize.ShloMosaic.ValueIdx

variable {α : Type}

/-- Side by side, a column of the first piece. -/
theorem cols_left {R C₁ C₂ C : ℕ} (a : (⟨2, ![R, C₁]⟩ : Shape).Idx → α) (b : (⟨2, ![R, C₂]⟩ : Shape).Idx → α)
    (h : Shape.Concatenates [(⟨2, ![R, C₁]⟩ : Shape), ⟨2, ![R, C₂]⟩] ⟨2, ![R, C]⟩ 1)
    (r : Fin R) (g : Fin C) (g' : Fin C₁) (hg : g'.val = g.val) :
    concatenate ⟨2, ![R, C]⟩ 1 [⟨⟨2, ![R, C₁]⟩, a⟩, ⟨⟨2, ![R, C₂]⟩, b⟩] h (ix2 r g) = a (ix2 r g') :=
  concatenate_pair_apply_left 1 a b h (ix2 r g) rfl (ix2 r g') fun ax => by
    match ax with
    | ⟨0, _⟩ => rfl
    | ⟨1, _⟩ => exact hg

/-- Side by side, a column of the second piece. -/
theorem cols_right {R C₁ C₂ C : ℕ} (a : (⟨2, ![R, C₁]⟩ : Shape).Idx → α) (b : (⟨2, ![R, C₂]⟩ : Shape).Idx → α)
    (h : Shape.Concatenates [(⟨2, ![R, C₁]⟩ : Shape), ⟨2, ![R, C₂]⟩] ⟨2, ![R, C]⟩ 1)
    (r : Fin R) (g : Fin C) (g' : Fin C₂) (hg : g'.val + C₁ = g.val) :
    concatenate ⟨2, ![R, C]⟩ 1 [⟨⟨2, ![R, C₁]⟩, a⟩, ⟨⟨2, ![R, C₂]⟩, b⟩] h (ix2 r g) = b (ix2 r g') :=
  concatenate_pair_apply_right 1 a b h (ix2 r g) rfl rfl (ix2 r g')
    (fun ax hne => by
      match ax with
      | ⟨0, _⟩ => rfl
      | ⟨1, _⟩ => exact absurd rfl hne)
    hg

/-- Stacked, a row of the first piece. -/
theorem rows_left {R₁ R₂ R C : ℕ} (a : (⟨2, ![R₁, C]⟩ : Shape).Idx → α) (b : (⟨2, ![R₂, C]⟩ : Shape).Idx → α)
    (h : Shape.Concatenates [(⟨2, ![R₁, C]⟩ : Shape), ⟨2, ![R₂, C]⟩] ⟨2, ![R, C]⟩ 0)
    (r : Fin R) (r' : Fin R₁) (hr : r'.val = r.val) (g : Fin C) :
    concatenate ⟨2, ![R, C]⟩ 0 [⟨⟨2, ![R₁, C]⟩, a⟩, ⟨⟨2, ![R₂, C]⟩, b⟩] h (ix2 r g) = a (ix2 r' g) :=
  concatenate_pair_apply_left 0 a b h (ix2 r g) rfl (ix2 r' g) fun ax => by
    match ax with
    | ⟨0, _⟩ => exact hr
    | ⟨1, _⟩ => rfl

/-- Stacked, a row of the second piece. -/
theorem rows_right {R₁ R₂ R C : ℕ} (a : (⟨2, ![R₁, C]⟩ : Shape).Idx → α) (b : (⟨2, ![R₂, C]⟩ : Shape).Idx → α)
    (h : Shape.Concatenates [(⟨2, ![R₁, C]⟩ : Shape), ⟨2, ![R₂, C]⟩] ⟨2, ![R, C]⟩ 0)
    (r : Fin R) (r' : Fin R₂) (hr : r'.val + R₁ = r.val) (g : Fin C) :
    concatenate ⟨2, ![R, C]⟩ 0 [⟨⟨2, ![R₁, C]⟩, a⟩, ⟨⟨2, ![R₂, C]⟩, b⟩] h (ix2 r g) = b (ix2 r' g) :=
  concatenate_pair_apply_right 0 a b h (ix2 r g) rfl rfl (ix2 r' g)
    (fun ax hne => by
      match ax with
      | ⟨0, _⟩ => exact absurd rfl hne
      | ⟨1, _⟩ => rfl)
    hr

/-- A sum over a + b positions, cut after the first a. -/
theorem sum_two_blocks {M : Type*} [AddCommMonoid M] {a b n : ℕ} (hn : a + b = n) (f : Fin n → M) :
    ∑ l : Fin n, f l
      = ∑ l : Fin a, f ⟨l.val, by have := l.isLt; omega⟩ + ∑ l : Fin b, f ⟨a + l.val, by have := l.isLt; omega⟩ := by
  subst hn
  exact Fin.sum_univ_add f

end Cert.LibConcat2
-- ==== Proof.KPayload.lean ====
/-
  The two kernel bodies' arithmetic at an index.

  The edge body's payload on a block of 3200 edge rows, read at row p and column q, is the edge function of row p of
  the two gathered blocks; the node body's payload on a block of 5000 node rows is the node function of row p of the
  feature block and of the aggregated-message block. Each body is a chain of pointwise operations around matrix
  products into a zero accumulator (plain sums over the contracted position), a side-by-side concatenation of two
  128-wide blocks, and broadcasts of a bias row / a gate column.
-/
import proofs.«139602_j75024488726858_1_alg».proof.Proof.Gen.KernelIdeal.Skeleton
import proofs.«139602_j75024488726858_1_alg».proof.Proof.Spec
import proofs.«139602_j75024488726858_1_alg».proof.Proof.LibPlainDot
import proofs.«139602_j75024488726858_1_alg».proof.Proof.LibColumn
import proofs.«139602_j75024488726858_1_alg».proof.Proof.LibConcat2
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Cert.Gcl Idealize.ShloMosaic Idealize.ShloMosaic.ValueIdx

/-! ## The stages, for arbitrary arrays -/

/-- `x · σ(x)`, pointwise. -/
theorem silu_apply {s : Shape} {φ : FTy} (v : FVec Ideal s φ) (i : s.Idx) : mulf v (logistic v) i = silu (v i) := rfl

/-- Two 128-wide blocks side by side: row p of the joined block is the two rows p side by side. -/
theorem cat_apply {R : ℕ} (a b : (⟨2, ![R, 128]⟩ : Shape).Idx → EReal)
    (h : Shape.Concatenates [(⟨2, ![R, 128]⟩ : Shape), ⟨2, ![R, 128]⟩] ⟨2, ![R, 256]⟩ 1) (p : Fin R) (l : Fin 256) :
    concatenate ⟨2, ![R, 256]⟩ 1 [⟨⟨2, ![R, 128]⟩, a⟩, ⟨⟨2, ![R, 128]⟩, b⟩] h (ix2 p l) = cat (rowOf a p) (rowOf b p) l := by
  by_cases hl : l.val < 128
  · rw [cat_left (rowOf a p) (rowOf b p) l ⟨l.val, hl⟩ rfl]
    exact LibConcat2.cols_left a b h p l ⟨l.val, hl⟩ rfl
  · have hl' : l.val - 128 < 128 := by have := l.isLt; omega
    have he : (⟨l.val - 128, hl'⟩ : Fin 128).val + 128 = l.val := by show l.val - 128 + 128 = l.val; omega
    rw [cat_right (rowOf a p) (rowOf b p) l ⟨l.val - 128, hl'⟩ he]
    exact LibConcat2.cols_right a b h p l ⟨l.val - 128, hl'⟩ he

/-- A product into a zero accumulator plus a broadcast bias row, read at (p, q): the affine map of row p of the left
    operand, whatever that row is known to be. -/
theorem lin_apply {M K N : ℕ} {φ₁ φ₂ : FTy} (D : DotDims ⟨2, ![M, K]⟩ ⟨2, ![K, N]⟩ ⟨2, ![M, N]⟩) (hD : D = DotDims.plain M K N)
    (prec : Option ContractPrecision) (A : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩)
    (x : Fin K → EReal) (p : Fin M) (hx : ∀ l, A (ix2 p l) = x l) (q : Fin N) :
    addf (matmul D prec A W (constant (F := Ideal) ⟨2, ![M, N]⟩ .f32 0x00000000#32)) (broadcastTo ⟨2, ![M, N]⟩ b hb) (ix2 p q)
      = lin x W (row0 b) q := by
  subst hD
  show FloatOps.matmul (DotDims.plain M K N) prec A W (constant (F := Ideal) ⟨2, ![M, N]⟩ .f32 0x00000000#32) (ix2 p q)
      + broadcastTo ⟨2, ![M, N]⟩ b hb (ix2 p q) = (∑ l : Fin K, x l * W (ix2 l q)) + b (ix2 (0 : Fin 1) q)
  rw [LibPlainDot.matmul_zero_apply prec A W p q, broadcastTo_1b_ab_apply b hb p q]
  exact congrArg (· + b (ix2 (0 : Fin 1) q)) (Finset.sum_congr rfl fun l _ => by rw [hx l])

/-! ## The edge body -/

section Edge

variable (x0 x1 : Vec Ideal S3200x128 .bf16) (x2 : Vec Ideal S256x128 .bf16) (x3 : Vec Ideal S1x128 .f32)
    (x4 : Vec Ideal S128x128 .bf16) (x5 : Vec Ideal S1x128 .f32) (x6 : Vec Ideal S128x1 .bf16) (x7 : Vec Ideal S1x1 .f32)

/-- `[r | c] · W₁ + b₁` on the block. -/
def eLin1 : FVec Ideal S3200x128 .f32 :=
  addf (matmul (φ₁ := .bf16) (φ₂ := .bf16) dot_S3200x256_S256x128_S3200x128_1_0_0_1_n_n none
      (concatenate S3200x256 1 [⟨S3200x128, x0⟩, ⟨S3200x128, x1⟩] concatenates_S3200x128_S3200x128_S3200x256_d1) x2
      (constant S3200x128 .f32 0x00000000#32)) (broadcastTo S3200x128 x3 broadcasts_S1x128_S3200x128)

/-- `m₁ = silu([r | c] · W₁ + b₁)` on the block. -/
def eAct1 : FVec Ideal S3200x128 .f32 := mulf (eLin1 x0 x1 x2 x3) (logistic (eLin1 x0 x1 x2 x3))

/-- `m₁ · W₂ + b₂` on the block. -/
def eLin2 : FVec Ideal S3200x128 .f32 :=
  addf (matmul (φ₁ := .bf16) (φ₂ := .bf16) dot_S3200x128_S128x128_S3200x128_1_0_0_1_n_n none
      (truncf .bf16 (eAct1 x0 x1 x2 x3) bitsLt_bf16_f32) x4
      (constant S3200x128 .f32 0x00000000#32)) (broadcastTo S3200x128 x5 broadcasts_S1x128_S3200x128)

/-- `m₂ = silu(m₁ · W₂ + b₂)` on the block. -/
def eAct2 : FVec Ideal S3200x128 .f32 := mulf (eLin2 x0 x1 x2 x3 x4 x5) (logistic (eLin2 x0 x1 x2 x3 x4 x5))

/-- `⟨m₂, a⟩ + α` on the block, a column. -/
def eLin3 : FVec Ideal S3200x1 .f32 :=
  addf (matmul (φ₁ := .bf16) (φ₂ := .bf16) dot_S3200x128_S128x1_S3200x1_1_0_0_1_n_n none
      (truncf .bf16 (eAct2 x0 x1 x2 x3 x4 x5) bitsLt_bf16_f32) x6
      (constant S3200x1 .f32 0x00000000#32)) (broadcastTo S3200x1 x7 broadcasts_S1x1_S3200x1)

/-- `m₂ · σ(⟨m₂, a⟩ + α)` on the block. -/
def eOut : FVec Ideal S3200x128 .f32 :=
  mulf (eAct2 x0 x1 x2 x3 x4 x5)
    (broadcastTo S3200x128 (logistic (eLin3 x0 x1 x2 x3 x4 x5 x6 x7)) broadcasts_S3200x1_S3200x128)

/-- The edge body's payload is the chain of the stages above (a cast of a shape to itself is the identity). -/
theorem k0_pay1_eq : k0_pay1 (F := Ideal) x0 x1 x2 x3 x4 x5 x6 x7 = eOut x0 x1 x2 x3 x4 x5 x6 x7 := by
  unfold k0_pay1
  simp only [shapeCast_self]
  rw [shapeCast_self x0, shapeCast_self x1]
  rfl

theorem eLin1_apply (p : Fin 3200) (k : Fin 128) :
    eLin1 x0 x1 x2 x3 (ix2 p k) = lin (cat (rowOf x0 p) (rowOf x1 p)) x2 (row0 x3) k := by
  unfold eLin1
  exact lin_apply (M := 3200) (K := 256) (N := 128) (φ₁ := .bf16) (φ₂ := .bf16) dot_S3200x256_S256x128_S3200x128_1_0_0_1_n_n rfl none _ x2 x3 _ _ p (fun l => cat_apply x0 x1 _ p l) k

theorem eAct1_apply (p : Fin 3200) (k : Fin 128) :
    eAct1 x0 x1 x2 x3 (ix2 p k) = edgeHid1 (rowOf x0 p) (rowOf x1 p) x2 (row0 x3) k := by
  unfold eAct1
  exact (silu_apply _ _).trans (congrArg silu (eLin1_apply x0 x1 x2 x3 p k))

theorem eLin2_apply (p : Fin 3200) (k : Fin 128) :
    eLin2 x0 x1 x2 x3 x4 x5 (ix2 p k) = lin (edgeHid1 (rowOf x0 p) (rowOf x1 p) x2 (row0 x3)) x4 (row0 x5) k := by
  unfold eLin2
  exact lin_apply (M := 3200) (K := 128) (N := 128) (φ₁ := .bf16) (φ₂ := .bf16) dot_S3200x128_S128x128_S3200x128_1_0_0_1_n_n rfl none _ x4 x5 _ _ p (fun l => eAct1_apply x0 x1 x2 x3 p l) k

theorem eAct2_apply (p : Fin 3200) (k : Fin 128) :
    eAct2 x0 x1 x2 x3 x4 x5 (ix2 p k) = edgeHid2 (rowOf x0 p) (rowOf x1 p) x2 (row0 x3) x4 (row0 x5) k := by
  unfold eAct2
  exact (silu_apply _ _).trans (congrArg silu (eLin2_apply x0 x1 x2 x3 x4 x5 p k))

theorem eLin3_apply (p : Fin 3200) :
    eLin3 x0 x1 x2 x3 x4 x5 x6 x7 (ix2 p (0 : Fin 1))
      = (∑ l : Fin 128, edgeHid2 (rowOf x0 p) (rowOf x1 p) x2 (row0 x3) x4 (row0 x5) l * x6 (ix2 l (0 : Fin 1)))
          + x7 (ix2 (0 : Fin 1) (0 : Fin 1)) := by
  unfold eLin3
  exact lin_apply (M := 3200) (K := 128) (N := 1) (φ₁ := .bf16) (φ₂ := .bf16) dot_S3200x128_S128x1_S3200x1_1_0_0_1_n_n rfl none _ x6 x7 _ _ p (fun l => eAct2_apply x0 x1 x2 x3 x4 x5 p l) 0

theorem eOut_apply (p : Fin 3200) (q : Fin 128) :
    eOut x0 x1 x2 x3 x4 x5 x6 x7 (ix2 p q)
      = edgeRow (rowOf x0 p) (rowOf x1 p) x2 (row0 x3) x4 (row0 x5) x6 (x7 (ix2 (0 : Fin 1) (0 : Fin 1))) q := by
  unfold eOut edgeRow edgeGate
  exact congrArg₂ (· * ·) (eAct2_apply x0 x1 x2 x3 x4 x5 p q)
    ((LibColumn.broadcastTo_a1_ab_apply (logistic (eLin3 x0 x1 x2 x3 x4 x5 x6 x7)) broadcasts_S3200x1_S3200x128 p q).trans
      (congrArg Ideal.logistic (eLin3_apply x0 x1 x2 x3 x4 x5 x6 x7 p)))

end Edge

/-- The edge body's payload at (p, q): the edge function of row p of the two endpoint blocks. -/
theorem edge_payload (x0 x1 : Vec Ideal S3200x128 .bf16) (x2 : Vec Ideal S256x128 .bf16) (x3 : Vec Ideal S1x128 .f32)
    (x4 : Vec Ideal S128x128 .bf16) (x5 : Vec Ideal S1x128 .f32) (x6 : Vec Ideal S128x1 .bf16) (x7 : Vec Ideal S1x1 .f32)
    (p : Fin 3200) (q : Fin 128) :
    k0_pay1 (F := Ideal) x0 x1 x2 x3 x4 x5 x6 x7 (ix2 p q)
      = edgeRow (rowOf x0 p) (rowOf x1 p) x2 (row0 x3) x4 (row0 x5) x6 (x7 (ix2 (0 : Fin 1) (0 : Fin 1))) q :=
  (congrFun (k0_pay1_eq x0 x1 x2 x3 x4 x5 x6 x7) (ix2 p q)).trans (eOut_apply x0 x1 x2 x3 x4 x5 x6 x7 p q)

/-! ## The node body -/

section Node

variable (x0 x1 : Vec Ideal S5000x128 .f32) (x2 : Vec Ideal S256x128 .bf16) (x3 : Vec Ideal S1x128 .f32)
    (x4 : Vec Ideal S128x128 .bf16) (x5 : Vec Ideal S1x128 .f32)

/-- `[x | g] · V₁ + d₁` on the block. -/
def nLin1 : FVec Ideal S5000x128 .f32 :=
  addf (matmul (φ₁ := .bf16) (φ₂ := .bf16) dot_S5000x256_S256x128_S5000x128_1_0_0_1_n_n none
      (truncf .bf16 (φ := .f32)
        (concatenate S5000x256 1 [⟨S5000x128, x0⟩, ⟨S5000x128, x1⟩] concatenates_S5000x128_S5000x128_S5000x256_d1)
        bitsLt_bf16_f32) x2
      (constant S5000x128 .f32 0x00000000#32)) (broadcastTo S5000x128 x3 broadcasts_S1x128_S5000x128)

/-- `silu([x | g] · V₁ + d₁)` on the block. -/
def nAct1 : FVec Ideal S5000x128 .f32 := mulf (nLin1 x0 x1 x2 x3) (logistic (nLin1 x0 x1 x2 x3))

/-- `hidden · V₂ + d₂` on the block. -/
def nLin2 : FVec Ideal S5000x128 .f32 :=
  addf (matmul (φ₁ := .bf16) (φ₂ := .bf16) dot_S5000x128_S128x128_S5000x128_1_0_0_1_n_n none
      (truncf .bf16 (nAct1 x0 x1 x2 x3) bitsLt_bf16_f32) x4
      (constant S5000x128 .f32 0x00000000#32)) (broadcastTo S5000x128 x5 broadcasts_S1x128_S5000x128)

/-- The residual `x + (hidden · V₂ + d₂)` on the block. -/
def nOut : FVec Ideal S5000x128 .f32 := addf x0 (nLin2 x0 x1 x2 x3 x4 x5)

/-- The node body's payload is the chain of the stages above (a cast of a shape to itself is the identity). -/
theorem k1_pay1_eq : k1_pay1 (F := Ideal) x0 x1 x2 x3 x4 x5 = nOut x0 x1 x2 x3 x4 x5 := by
  unfold k1_pay1
  simp only [shapeCast_self]
  rw [shapeCast_self x1]
  rfl

theorem nLin1_apply (p : Fin 5000) (k : Fin 128) :
    nLin1 x0 x1 x2 x3 (ix2 p k) = lin (cat (rowOf x0 p) (rowOf x1 p)) x2 (row0 x3) k := by
  unfold nLin1
  refine lin_apply (M := 5000) (K := 256) (N := 128) (φ₁ := .bf16) (φ₂ := .bf16) dot_S5000x256_S256x128_S5000x128_1_0_0_1_n_n rfl none _ x2 x3 _
    (cat (rowOf x0 p) (rowOf x1 p)) p (fun l => ?_) k
  exact cat_apply x0 x1 concatenates_S5000x128_S5000x128_S5000x256_d1 p l

theorem nAct1_apply (p : Fin 5000) (k : Fin 128) :
    nAct1 x0 x1 x2 x3 (ix2 p k) = nodeHid (rowOf x0 p) (rowOf x1 p) x2 (row0 x3) k := by
  unfold nAct1
  exact (silu_apply _ _).trans (congrArg silu (nLin1_apply x0 x1 x2 x3 p k))

theorem nLin2_apply (p : Fin 5000) (k : Fin 128) :
    nLin2 x0 x1 x2 x3 x4 x5 (ix2 p k) = lin (nodeHid (rowOf x0 p) (rowOf x1 p) x2 (row0 x3)) x4 (row0 x5) k := by
  unfold nLin2
  exact lin_apply (M := 5000) (K := 128) (N := 128) (φ₁ := .bf16) (φ₂ := .bf16) dot_S5000x128_S128x128_S5000x128_1_0_0_1_n_n rfl none _ x4 x5 _ _ p (fun l => nAct1_apply x0 x1 x2 x3 p l) k

theorem nOut_apply (p : Fin 5000) (q : Fin 128) :
    nOut x0 x1 x2 x3 x4 x5 (ix2 p q) = nodeRow (rowOf x0 p) (rowOf x1 p) x2 (row0 x3) x4 (row0 x5) q := by
  unfold nOut nodeRow
  exact congrArg (x0 (ix2 p q) + ·) (nLin2_apply x0 x1 x2 x3 x4 x5 p q)

end Node

/-- The node body's payload at (p, q): the node function of row p of the feature and message blocks. -/
theorem node_payload (x0 x1 : Vec Ideal S5000x128 .f32) (x2 : Vec Ideal S256x128 .bf16) (x3 : Vec Ideal S1x128 .f32)
    (x4 : Vec Ideal S128x128 .bf16) (x5 : Vec Ideal S1x128 .f32) (p : Fin 5000) (q : Fin 128) :
    k1_pay1 (F := Ideal) x0 x1 x2 x3 x4 x5 (ix2 p q)
      = nodeRow (rowOf x0 p) (rowOf x1 p) x2 (row0 x3) x4 (row0 x5) q :=
  (congrFun (k1_pay1_eq x0 x1 x2 x3 x4 x5) (ix2 p q)).trans (nOut_apply x0 x1 x2 x3 x4 x5 p q)

end Cert.KernelIdeal.Pay

end
-- ==== Proof.KEdgeBlocks.lean ====
/-
  Region 0: from the edge body's blocks to the whole array of edge messages.

  The grid has 250 points; point t takes rows 3200·t … 3200·t + 3199 of the two gathered endpoint arrays (windows 0
  and 1), the whole of each weight / bias array (windows 2 … 7, block index (0, 0) at every point), and writes rows
  3200·t … 3200·t + 3199 of the message array (window 8). Since the body's payload at row p of its block is the edge
  function of row p of the two endpoint blocks, and row p of block t IS row 3200·t + p of the array, what point t
  writes back is block t of the edge function applied row by row to the whole arrays; the 250 blocks tile the
  800000 rows, so the array ends as that function of the arrays the region found.
-/
import proofs.«139602_j75024488726858_1_alg».proof.Proof.Gen.KernelIdeal.Frame
import proofs.«139602_j75024488726858_1_alg».proof.Proof.Spec
import Idealize.ShloMosaic.Lib.Pipeline.Value
import Idealize.ShloMosaic.Lib.ValueIdx

set_option maxRecDepth 16384

noncomputable section

namespace Cert.KernelIdeal.EdgeBlocks

open Cert.KernelIdeal Cert.KernelIdeal.Gen Cert.Gcl
open Idealize.ShloMosaic Idealize.ShloMosaic.TcCoe Idealize.ShloMosaic.ValueIdx Idealize.SL.Sem
open Idealize.ShloMosaic.Pipeline (Dat)

/-- The edge body's payload at row p, column q of its block is the edge function of row p of the endpoint blocks. -/
def EdgePayload : Prop :=
  ∀ (x0 x1 : Vec Ideal S3200x128 .bf16) (x2 : Vec Ideal S256x128 .bf16) (x3 : Vec Ideal S1x128 .f32)
    (x4 : Vec Ideal S128x128 .bf16) (x5 : Vec Ideal S1x128 .f32) (x6 : Vec Ideal S128x1 .bf16) (x7 : Vec Ideal S1x1 .f32)
    (p : Fin 3200) (q : Fin 128),
    k0_pay1 (F := Ideal) x0 x1 x2 x3 x4 x5 x6 x7 (ix2 p q)
      = edgeRow (rowOf x0 p) (rowOf x1 p) x2 (row0 x3) x4 (row0 x5) x6 (x7 (ix2 (0 : Fin 1) (0 : Fin 1))) q

variable (V : (c : Dev nD) → (b : Ref sig .tc) → Buf (Elt Ideal) ((c : Thread nD τ).loc b))

theorem hz : (![0, 0] : Fin 2 → Nat) = fun _ => 0 := funext fun a => by fin_cases a <;> rfl

/-- The message array the region leaves: the edge function, row by row, of the arrays it found. -/
abbrev edgeOf (c : Dev nD) : S800000x128.Idx → EReal :=
  edgeArr (V c main_v11) (V c main_v18) (V c main_v19) (row0 (V c main_v22)) (V c main_v20) (row0 (V c main_v23))
    (V c main_v21) (V c main_v24 (ix2 (0 : Fin 1) (0 : Fin 1)))

/-- The payload at an index of the block against the edge function at an index of the array, when the block's rows
    are the array's rows and the weight blocks are the weight arrays. -/
theorem point_eq (hpay : EdgePayload)
    (x0 x1 : Vec Ideal S3200x128 .bf16) (x2 : Vec Ideal S256x128 .bf16) (x3 : Vec Ideal S1x128 .f32)
    (x4 : Vec Ideal S128x128 .bf16) (x5 : Vec Ideal S1x128 .f32) (x6 : Vec Ideal S128x1 .bf16) (x7 : Vec Ideal S1x1 .f32)
    (hr hc : S800000x128.Idx → EReal) (w1 : S256x128.Idx → EReal) (b1 : S1x128.Idx → EReal) (w2 : S128x128.Idx → EReal)
    (b2 : S1x128.Idx → EReal) (aw : S128x1.Idx → EReal) (ab : S1x1.Idx → EReal)
    (j : S3200x128.Idx) (i : S800000x128.Idx)
    (h0 : ∀ l : Fin 128, x0 (ix2 (j 0) l) = hr (ix2 (i 0) l))
    (h1 : ∀ l : Fin 128, x1 (ix2 (j 0) l) = hc (ix2 (i 0) l))
    (h2 : x2 = w1) (h3 : x3 = b1) (h4 : x4 = w2) (h5 : x5 = b2) (h6 : x6 = aw) (h7 : x7 = ab)
    (hq : (j 1).val = (i 1).val) :
    k0_pay1 (F := Ideal) x0 x1 x2 x3 x4 x5 x6 x7 j
      = edgeArr hr hc w1 (row0 b1) w2 (row0 b2) aw (ab (ix2 (0 : Fin 1) (0 : Fin 1))) i := by
  subst h2 h3 h4 h5 h6 h7
  obtain ⟨p, q, rfl⟩ : ∃ (p : Fin 3200) (q : Fin 128), j = ix2 p q := ⟨j 0, j 1, eq_ix2 j⟩
  obtain ⟨e, q', rfl⟩ : ∃ (e : Fin 800000) (q' : Fin 128), i = ix2 e q' := ⟨i 0, i 1, eq_ix2 i⟩
  have hqq : q = q' := Fin.ext hq
  subst hqq
  have e0 : rowOf x0 p = rowOf hr e := funext h0
  have e1 : rowOf x1 p = rowOf hc e := funext h1
  rw [hpay, edgeArr_apply, e0, e1]

/-- The printed index maps over the grid: windows 0, 1 and 8 move with the point along the rows, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- WHAT POINT t WRITES BACK is block t of the edge function of the arrays the region found. -/
theorem flushed_eq (hpay : EdgePayload) (c : Dev nD) (t : Fin cfg0.N) :
    (dat0 V c).flushed 8 t = ((cfg0.win 8).blk t).view.read (Elt Ideal) (edgeOf V c) := by
  show (cfg0.win 8).cut (grid0.coords t) ((dat0 V c).after 8 t) = _
  rw [after0_8]
  unfold out0_8
  rw [View.canon_unit_zero hz]
  simp only [View.ld_unit_zero (S := S3200x128) hz, View.ld_unit_zero (S := S256x128) hz, View.ld_unit_zero (S := S1x128) hz,
    View.ld_unit_zero (S := S128x128) hz, View.ld_unit_zero (S := S128x1) hz, View.ld_unit_zero (S := S1x1) hz]
  obtain ⟨a00, a01, a10, a11, a20, a21, a30, a31, a40, a41, a50, a51, a60, a61, a70, a71, a80, a81⟩ := idx_facts t
  funext j
  show k0_pay1 (iblk0 V c 0 t) (iblk0 V c 1 t) (iblk0 V c 2 t) (iblk0 V c 3 t) (iblk0 V c 4 t) (iblk0 V c 5 t)
      (iblk0 V c 6 t) (iblk0 V c 7 t) j = edgeOf V c (((cfg0.win 8).blk t).view.emb j)
  refine point_eq hpay (iblk0 V c 0 t) (iblk0 V c 1 t) (iblk0 V c 2 t) (iblk0 V c 3 t) (iblk0 V c 4 t) (iblk0 V c 5 t)
    (iblk0 V c 6 t) (iblk0 V c 7 t) (V c main_v11) (V c main_v18) (V c main_v19) (V c main_v22) (V c main_v20) (V c main_v23)
    (V c main_v21) (V c main_v24) j (((cfg0.win 8).blk t).view.emb j)
    (fun l => congrArg (V c main_v11) (funext fun a => Fin.ext (by
      match a with
      | ⟨0, _⟩ => show win0_0.index t (0 : Fin 2) * 3200 + 1 * (j 0).val = win0_8.index t (0 : Fin 2) * 3200 + 1 * (j 0).val; omega
      | ⟨1, _⟩ => show win0_0.index t (1 : Fin 2) * 128 + 1 * l.val = l.val; omega)))
    (fun l => congrArg (V c main_v18) (funext fun a => Fin.ext (by
      match a with
      | ⟨0, _⟩ => show win0_1.index t (0 : Fin 2) * 3200 + 1 * (j 0).val = win0_8.index t (0 : Fin 2) * 3200 + 1 * (j 0).val; omega
      | ⟨1, _⟩ => show win0_1.index t (1 : Fin 2) * 128 + 1 * l.val = l.val; omega)))
    (funext fun y => congrArg (V c main_v19) (funext fun a => Fin.ext (by
      match a with
      | ⟨0, _⟩ => show win0_2.index t (0 : Fin 2) * 256 + 1 * (y 0).val = (y 0).val; omega
      | ⟨1, _⟩ => show win0_2.index t (1 : Fin 2) * 128 + 1 * (y 1).val = (y 1).val; omega)))
    (funext fun y => congrArg (V c main_v22) (funext fun a => Fin.ext (by
      match a with
      | ⟨0, _⟩ => show win0_3.index t (0 : Fin 2) * 1 + 1 * (y 0).val = (y 0).val; omega
      | ⟨1, _⟩ => show win0_3.index t (1 : Fin 2) * 128 + 1 * (y 1).val = (y 1).val; omega)))
    (funext fun y => congrArg (V c main_v20) (funext fun a => Fin.ext (by
      match a with
      | ⟨0, _⟩ => show win0_4.index t (0 : Fin 2) * 128 + 1 * (y 0).val = (y 0).val; omega
      | ⟨1, _⟩ => show win0_4.index t (1 : Fin 2) * 128 + 1 * (y 1).val = (y 1).val; omega)))
    (funext fun y => congrArg (V c main_v23) (funext fun a => Fin.ext (by
      match a with
      | ⟨0, _⟩ => show win0_5.index t (0 : Fin 2) * 1 + 1 * (y 0).val = (y 0).val; omega
      | ⟨1, _⟩ => show win0_5.index t (1 : Fin 2) * 128 + 1 * (y 1).val = (y 1).val; omega)))
    (funext fun y => congrArg (V c main_v21) (funext fun a => Fin.ext (by
      match a with
      | ⟨0, _⟩ => show win0_6.index t (0 : Fin 2) * 128 + 1 * (y 0).val = (y 0).val; omega
      | ⟨1, _⟩ => show win0_6.index t (1 : Fin 2) * 1 + 1 * (y 1).val = (y 1).val; omega)))
    (funext fun y => congrArg (V c main_v24) (funext fun a => Fin.ext (by
      match a with
      | ⟨0, _⟩ => show win0_7.index t (0 : Fin 2) * 1 + 1 * (y 0).val = (y 0).val; omega
      | ⟨1, _⟩ => show win0_7.index t (1 : Fin 2) * 1 + 1 * (y 1).val = (y 1).val; omega)))
    (by show (j 1).val = win0_8.index t (1 : Fin 2) * 128 + 1 * (j 1).val; omega)

/-- An index of the message array is in point t's block iff each coordinate is in the block's range on its axis. -/
theorem mem_blk (t : Fin cfg0.N) (i : S800000x128.Idx) :
    i ∈ ((cfg0.win 8).blk t).view.set ↔ ∀ a : Fin 2, win0_8.index t a * S3200x128.size a ≤ (i a).val
      ∧ (i a).val < win0_8.index t a * S3200x128.size a + S3200x128.size a := by
  show i ∈ ((View.whole main_v25).slice (win0_8.rect t)).set ↔ _
  rw [View.set_slice_whole, Rect.mem_set_unit]
  exact Iff.rfl

/-- The 250 blocks of 3200 rows tile the 800000 rows: row r is in the block of point r / 3200. -/
theorem cover (i : S800000x128.Idx) :
    ∃ t : Fin cfg0.N, (cfg0.win 8).flush t = true ∧ i ∈ ((cfg0.win 8).blk t).view.set := by
  have hi0 : (i 0).val < 800000 := (i 0).isLt
  have hi1 : (i 1).val < 128 := (i 1).isLt
  have hN : grid0.N = 250 := N_0
  let t : Fin cfg0.N := ⟨(i 0).val / 3200, by show (i 0).val / 3200 < grid0.N; rw [hN]; omega⟩
  obtain ⟨a00, a01, a10, a11, a20, a21, a30, a31, a40, a41, a50, a51, a60, a61, a70, a71, a80, a81⟩ := idx_facts t
  have ht : t.val = (i 0).val / 3200 := rfl
  refine ⟨t, flush0_8 t, ?_⟩
  rw [mem_blk]
  intro a
  match a with
  | ⟨0, _⟩ => show win0_8.index t (0 : Fin 2) * 3200 ≤ (i 0).val ∧ (i 0).val < win0_8.index t (0 : Fin 2) * 3200 + 3200; omega
  | ⟨1, _⟩ => show win0_8.index t (1 : Fin 2) * 128 ≤ (i 1).val ∧ (i 1).val < win0_8.index t (1 : Fin 2) * 128 + 128; omega

/-- THE MESSAGE ARRAY after the region: the edge function, row by row, of the arrays the region found. -/
theorem final (hpay : EdgePayload) (c : Dev nD) : (dat0 V c).arrAt 8 cfg0.N = edgeOf V c :=
  (dat0 V c).arrAt_eq_of_cover 8 (edgeOf V c) (fun t _ => flushed_eq V hpay c t) cover

end Cert.KernelIdeal.EdgeBlocks

end
-- ==== Proof.KNodeBlocks.lean ====
/-
  Region 1: from the node body's blocks to the whole array of updated node features.

  The grid has 10 points; point t takes rows 5000·t … 5000·t + 4999 of the feature array and of the aggregated-message
  array (windows 0 and 1), the whole of each weight / bias array (windows 2 … 5), and writes rows 5000·t … 5000·t + 4999
  of the result (window 6). The body's payload at row p of its block is the node function of row p of the two input
  blocks, which are rows 5000·t + p of the arrays; the 10 blocks tile the 50000 rows.
-/
import proofs.«139602_j75024488726858_1_alg».proof.Proof.Gen.KernelIdeal.Frame
import proofs.«139602_j75024488726858_1_alg».proof.Proof.Spec
import Idealize.ShloMosaic.Lib.Pipeline.Value
import Idealize.ShloMosaic.Lib.ValueIdx

set_option maxRecDepth 16384

noncomputable section

namespace Cert.KernelIdeal.NodeBlocks

open Cert.KernelIdeal Cert.KernelIdeal.Gen Cert.Gcl
open Idealize.ShloMosaic Idealize.ShloMosaic.TcCoe Idealize.ShloMosaic.ValueIdx Idealize.SL.Sem
open Idealize.ShloMosaic.Pipeline (Dat)

/-- The node body's payload at row p, column q of its block is the node function of row p of the input blocks. -/
def NodePayload : Prop :=
  ∀ (x0 x1 : Vec Ideal S5000x128 .f32) (x2 : Vec Ideal S256x128 .bf16) (x3 : Vec Ideal S1x128 .f32)
    (x4 : Vec Ideal S128x128 .bf16) (x5 : Vec Ideal S1x128 .f32) (p : Fin 5000) (q : Fin 128),
    k1_pay1 (F := Ideal) x0 x1 x2 x3 x4 x5 (ix2 p q) = nodeRow (rowOf x0 p) (rowOf x1 p) x2 (row0 x3) x4 (row0 x5) q

variable (V : (c : Dev nD) → (b : Ref sig .tc) → Buf (Elt Ideal) ((c : Thread nD τ).loc b))

theorem hz : (![0, 0] : Fin 2 → Nat) = fun _ => 0 := funext fun a => by fin_cases a <;> rfl

/-- The result array the region leaves: the node function, row by row, of the arrays it found. -/
abbrev nodeOf (c : Dev nD) : S50000x128.Idx → EReal :=
  nodeArr (V c main_arg0) (V c main_v30) (V c main_v31) (row0 (V c main_v33)) (V c main_v32) (row0 (V c main_v34))

/-- The payload at an index of the block against the node function at an index of the array, when the block's rows
    are the array's rows and the weight blocks are the weight arrays. -/
theorem point_eq (hpay : NodePayload)
    (x0 x1 : Vec Ideal S5000x128 .f32) (x2 : Vec Ideal S256x128 .bf16) (x3 : Vec Ideal S1x128 .f32)
    (x4 : Vec Ideal S128x128 .bf16) (x5 : Vec Ideal S1x128 .f32)
    (h g : S50000x128.Idx → EReal) (w1 : S256x128.Idx → EReal) (b1 : S1x128.Idx → EReal) (w2 : S128x128.Idx → EReal)
    (b2 : S1x128.Idx → EReal) (j : S5000x128.Idx) (i : S50000x128.Idx)
    (h0 : ∀ l : Fin 128, x0 (ix2 (j 0) l) = h (ix2 (i 0) l))
    (h1 : ∀ l : Fin 128, x1 (ix2 (j 0) l) = g (ix2 (i 0) l))
    (h2 : x2 = w1) (h3 : x3 = b1) (h4 : x4 = w2) (h5 : x5 = b2)
    (hq : (j 1).val = (i 1).val) :
    k1_pay1 (F := Ideal) x0 x1 x2 x3 x4 x5 j = nodeArr h g w1 (row0 b1) w2 (row0 b2) i := by
  subst h2 h3 h4 h5
  obtain ⟨p, q, rfl⟩ : ∃ (p : Fin 5000) (q : Fin 128), j = ix2 p q := ⟨j 0, j 1, eq_ix2 j⟩
  obtain ⟨e, q', rfl⟩ : ∃ (e : Fin 50000) (q' : Fin 128), i = ix2 e q' := ⟨i 0, i 1, eq_ix2 i⟩
  have hqq : q = q' := Fin.ext hq
  subst hqq
  have e0 : rowOf x0 p = rowOf h e := funext h0
  have e1 : rowOf x1 p = rowOf g e := funext h1
  rw [hpay, nodeArr_apply, e0, e1]

/-- The printed index maps over the grid: windows 0, 1 and 6 move with the point along the rows, the others stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT t WRITES BACK is block t of the node function of the arrays the region found. -/
theorem flushed_eq (hpay : NodePayload) (c : Dev nD) (t : Fin cfg1.N) :
    (dat1 V c).flushed 6 t = ((cfg1.win 6).blk t).view.read (Elt Ideal) (nodeOf V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S256x128) hz, View.ld_unit_zero (S := S1x128) hz,
    View.ld_unit_zero (S := S128x128) hz]
  obtain ⟨a00, a01, a10, a11, a20, a21, a30, a31, a40, a41, a50, a51, a60, a61⟩ := idx_facts t
  funext j
  show k1_pay1 (iblk1 V c 0 t) (iblk1 V c 1 t) (iblk1 V c 2 t) (iblk1 V c 3 t) (iblk1 V c 4 t) (iblk1 V c 5 t) j
      = nodeOf V c (((cfg1.win 6).blk t).view.emb j)
  refine point_eq hpay (iblk1 V c 0 t) (iblk1 V c 1 t) (iblk1 V c 2 t) (iblk1 V c 3 t) (iblk1 V c 4 t) (iblk1 V c 5 t)
    (V c main_arg0) (V c main_v30) (V c main_v31) (V c main_v33) (V c main_v32) (V c main_v34)
    j (((cfg1.win 6).blk t).view.emb j)
    (fun l => congrArg (V c main_arg0) (funext fun a => Fin.ext (by
      match a with
      | ⟨0, _⟩ => show win1_0.index t (0 : Fin 2) * 5000 + 1 * (j 0).val = win1_6.index t (0 : Fin 2) * 5000 + 1 * (j 0).val; omega
      | ⟨1, _⟩ => show win1_0.index t (1 : Fin 2) * 128 + 1 * l.val = l.val; omega)))
    (fun l => congrArg (V c main_v30) (funext fun a => Fin.ext (by
      match a with
      | ⟨0, _⟩ => show win1_1.index t (0 : Fin 2) * 5000 + 1 * (j 0).val = win1_6.index t (0 : Fin 2) * 5000 + 1 * (j 0).val; omega
      | ⟨1, _⟩ => show win1_1.index t (1 : Fin 2) * 128 + 1 * l.val = l.val; omega)))
    (funext fun y => congrArg (V c main_v31) (funext fun a => Fin.ext (by
      match a with
      | ⟨0, _⟩ => show win1_2.index t (0 : Fin 2) * 256 + 1 * (y 0).val = (y 0).val; omega
      | ⟨1, _⟩ => show win1_2.index t (1 : Fin 2) * 128 + 1 * (y 1).val = (y 1).val; omega)))
    (funext fun y => congrArg (V c main_v33) (funext fun a => Fin.ext (by
      match a with
      | ⟨0, _⟩ => show win1_3.index t (0 : Fin 2) * 1 + 1 * (y 0).val = (y 0).val; omega
      | ⟨1, _⟩ => show win1_3.index t (1 : Fin 2) * 128 + 1 * (y 1).val = (y 1).val; omega)))
    (funext fun y => congrArg (V c main_v32) (funext fun a => Fin.ext (by
      match a with
      | ⟨0, _⟩ => show win1_4.index t (0 : Fin 2) * 128 + 1 * (y 0).val = (y 0).val; omega
      | ⟨1, _⟩ => show win1_4.index t (1 : Fin 2) * 128 + 1 * (y 1).val = (y 1).val; omega)))
    (funext fun y => congrArg (V c main_v34) (funext fun a => Fin.ext (by
      match a with
      | ⟨0, _⟩ => show win1_5.index t (0 : Fin 2) * 1 + 1 * (y 0).val = (y 0).val; omega
      | ⟨1, _⟩ => show win1_5.index t (1 : Fin 2) * 128 + 1 * (y 1).val = (y 1).val; omega)))
    (by show (j 1).val = win1_6.index t (1 : Fin 2) * 128 + 1 * (j 1).val; omega)

/-- An index of the result array is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v35).slice (win1_6.rect t)).set ↔ _
  rw [View.set_slice_whole, Rect.mem_set_unit]
  exact Iff.rfl

/-- The 10 blocks of 5000 rows tile the 50000 rows: row r is in the block of point r / 5000. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; rw [hN]; omega⟩
  obtain ⟨a00, a01, a10, a11, a20, a21, a30, a31, a40, a41, a50, a51, a60, a61⟩ := idx_facts t
  have ht : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE RESULT ARRAY after the region: the node function, row by row, of the arrays the region found. -/
theorem final (hpay : NodePayload) (c : Dev nD) : (dat1 V c).arrAt 6 cfg1.N = nodeOf V c :=
  (dat1 V c).arrAt_eq_of_cover 6 (nodeOf V c) (fun t _ => flushed_eq V hpay c t) cover

end Cert.KernelIdeal.NodeBlocks

end
-- ==== Proof.LibRecipDiv.lean ====
/-
  Dividing by a nonzero extended real is multiplying by its reciprocal.

  On the extended reals the ideal quotient x / y is x · y⁻¹ whenever y ≠ 0 (y may be infinite: its inverse is then 0),
  and 1 / y is y⁻¹.  So a program that scales by a precomputed reciprocal 1 / c and one that divides by c agree as soon
  as c is not zero — no finiteness of x or c is needed.  A count clamped below by one (max n 1) is such a c.
-/
import Idealize.ShloMosaic.PureOps.Ideal.Laws

noncomputable section

namespace Cert.LibRecipDiv

open Idealize.ShloMosaic

/-- The f32 word 0x3F800000 denotes the number one. -/
theorem ofBits_one_f32 : Ideal.ofBits .f32 0x3F800000#32 = 1 := by
  simp [Ideal.ofBits, Ideal.ieee, -EReal.coe_mul]; norm_num

/-- For `c ≠ 0` (finite or not), `x · (1 / c) = x / c` at the ideal values: both are `x · c⁻¹`. -/
theorem mul_one_div (x c : EReal) (hc : c ≠ 0) : x * Ideal.div 1 c = Ideal.div x c := by
  unfold Ideal.div
  rw [if_neg hc, if_neg hc, one_mul]

/-- Anything clamped below by one is not zero. -/
theorem max_one_ne_zero (n : EReal) : max n 1 ≠ 0 :=
  (lt_of_lt_of_le zero_lt_one (le_max_right n 1)).ne'

/-- The same with the one spelt as its f32 word, as a clamp against a float constant prints. -/
theorem max_oneWord_ne_zero (n : EReal) : max n (Ideal.ofBits .f32 0x3F800000#32) ≠ 0 := by
  rw [ofBits_one_f32]
  exact max_one_ne_zero n

end Cert.LibRecipDiv

end
-- ==== Proof.RefStage.lean ====
/-
  The reference's two dense stages at an index.

  The reference computes all 800000 edge messages as whole-array host operations (a side-by-side concatenation of the
  two gathered arrays, three matrix products with broadcast biases, silu twice, the logistic gate broadcast along the
  row) and all 50000 updated node rows likewise. Read at row e (row n) and column q, each is the edge (node) function
  of that row of its input arrays: every operation in the chain is pointwise, a plain matrix product (a sum over the
  contracted position), a concatenation, or a broadcast.
-/
import proofs.«139602_j75024488726858_1_alg».proof.Proof.RefRead
import proofs.«139602_j75024488726858_1_alg».proof.Proof.Spec
import proofs.«139602_j75024488726858_1_alg».proof.Proof.LibPlainDot
import proofs.«139602_j75024488726858_1_alg».proof.Proof.LibColumn
import proofs.«139602_j75024488726858_1_alg».proof.Proof.LibConcat2
import proofs.«139602_j75024488726858_1_alg».proof.Proof.LibRecipDiv
import Idealize.ShloMosaic.Lib.ValueLayout
import Idealize.ShloMosaic.Lib.Pipeline.Value
import Idealize.ShloMosaic.PureOps.Ideal.Laws

noncomputable section

open scoped BigOperators

namespace Cert.ReferenceIdeal.Stage

open Cert.ReferenceIdeal Cert.ReferenceIdeal.Read Cert.Gcl Idealize.ShloMosaic Idealize.ShloMosaic.ValueIdx

/-! ### Pointwise facts -/

/-- x · (1 / (1 + e^(−x))) is silu x; the two ones are the f32 word of the number one. -/
theorem silu_expand (y : EReal) :
    y * Ideal.div (Ideal.ofBits .f32 0x3F800000#32) (Ideal.ofBits .f32 0x3F800000#32 + Ideal.exp (-y)) = silu y := by
  rw [Cert.LibRecipDiv.ofBits_one_f32]
  rfl

/-- 1 / (1 + e^(−x)) is the logistic function. -/
theorem logistic_expand (y : EReal) :
    Ideal.div (Ideal.ofBits .f32 0x3F800000#32) (Ideal.ofBits .f32 0x3F800000#32 + Ideal.exp (-y)) = Ideal.logistic y := by
  rw [Cert.LibRecipDiv.ofBits_one_f32]
  rfl

/-- The same in the host's operations: multiply, divide, add, exponential, negate. -/
theorem silu_host (y : Ideal .f32) :
    FloatOps.mulf y (FloatOps.hostDivf (FloatOps.ofBits (F := Ideal) .f32 0x3F800000#32)
      (FloatOps.addf (FloatOps.ofBits (F := Ideal) .f32 0x3F800000#32) (FloatOps.hostUnary .exp (FloatOps.hostNegf y)))) = silu y :=
  silu_expand y

/-- The same for the logistic function alone. -/
theorem logistic_host (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y))) = Ideal.logistic y :=
  logistic_expand y

/-- A sum of products plus a term, compared factor by factor. -/
theorem sum_add_of {K : ℕ} (f g x y : Fin K → EReal) (u v : EReal)
    (h1 : ∀ l, f l = x l) (h2 : ∀ l, g l = y l) (h3 : u = v) :
    (∑ l : Fin K, f l * g l) + u = (∑ l : Fin K, x l * y l) + v := by
  rw [h3]
  exact congrArg (· + v) (Finset.sum_congr rfl fun l _ => by rw [h1 l, h2 l])

/-- Two arrays of 128 columns joined side by side, read at (e, l): the side-by-side row of their two rows e. -/
theorem cat_stage {R : ℕ} (hr hc : (⟨2, ![R, 128]⟩ : Shape).Idx → EReal)
    (h : Shape.Concatenates [(⟨2, ![R, 128]⟩ : Shape), ⟨2, ![R, 128]⟩] ⟨2, ![R, 256]⟩ 1) (e : Fin R) (l : Fin 256) :
    concatenate ⟨2, ![R, 256]⟩ 1 [⟨⟨2, ![R, 128]⟩, hr⟩, ⟨⟨2, ![R, 128]⟩, hc⟩] h (ix2 e l) = cat (rowOf hr e) (rowOf hc e) l := by
  by_cases hl : l.val < 128
  · exact (Cert.LibConcat2.cols_left hr hc h e l ⟨l.val, hl⟩ rfl).trans
      (cat_left (rowOf hr e) (rowOf hc e) l ⟨l.val, hl⟩ rfl).symm
  · have hl' : l.val - 128 < 128 := by have := l.isLt; omega
    have hg : (⟨l.val - 128, hl'⟩ : Fin 128).val + 128 = l.val := by show l.val - 128 + 128 = l.val; omega
    exact (Cert.LibConcat2.cols_right hr hc h e l ⟨l.val - 128, hl'⟩ hg).trans
      (cat_right (rowOf hr e) (rowOf hc e) l ⟨l.val - 128, hl'⟩ hg).symm

/-! ### The edge chain, stage by stage, at row e -/

section Stages

variable {x0 : FVec Ideal S50000x128 .f32} {x1 : IVec S2x800000 32} {x2 : FVec Ideal S256x128 .f32} {x3 : FVec Ideal S128 .f32}
  {x4 : FVec Ideal S128x128 .f32} {x5 : FVec Ideal S128 .f32} {x6 : FVec Ideal S128x1 .f32} {x7 : FVec Ideal S1 .f32}
  {x8 : FVec Ideal S256x128 .f32} {x9 : FVec Ideal S128 .f32} {x10 : FVec Ideal S128x128 .f32} {x11 : FVec Ideal S128 .f32}
  {e : Fin 800000} {n : Fin 50000}

/-- The first product plus bias: an affine map of the joined row. -/
theorem edge_lin1 {r c : Fin 128 → EReal}
    (h18 : ∀ l : Fin 256, val_main_v18 (F := Ideal) x0 x1 (ix2 e l) = cat r c l) (k : Fin 128) :
    val_main_v22 (F := Ideal) x0 x1 x2 x3 (ix2 e k) = lin (cat r c) x2 (vecOf x3) k := by
  rw [val_main_v22_apply, val_main_v19_apply, val_main_v21_apply, val_main_v20_apply, Ideal.addf_def]
  unfold lin
  refine sum_add_of _ _ _ _ _ _ (fun l => ?_) (fun l => ?_) ?_
  · exact (congrArg (val_main_v18 (F := Ideal) x0 x1) (show lidx_main_v19 (ix2 e k) l = ix2 e l from
      funext fun a => match a with | ⟨0, _⟩ => rfl | ⟨1, _⟩ => rfl)).trans (h18 l)
  · exact congrArg x2 (show ridx_main_v19 (ix2 e k) l = ix2 l k from
      funext fun a => match a with | ⟨0, _⟩ => rfl | ⟨1, _⟩ => rfl)
  · exact congrArg x3 (show idx_main_v20 (idx_main_v21 (ix2 e k)) = ix1 k from
      funext fun a => match a with | ⟨0, _⟩ => rfl)

/-- silu of the first affine row, position by position. -/
theorem edge_silu1 {f : Fin 128 → EReal}
    (h22 : ∀ k : Fin 128, val_main_v22 (F := Ideal) x0 x1 x2 x3 (ix2 e k) = f k) (k : Fin 128) :
    val_main_v23 (F := Ideal) x0 x1 x2 x3 (ix2 e k) = silu (f k) := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply, h22]
  exact silu_host (f k)

/-- The second product plus bias: an affine map of the first hidden row. -/
theorem edge_lin2 {g : Fin 128 → EReal}
    (h23 : ∀ k : Fin 128, val_main_v23 (F := Ideal) x0 x1 x2 x3 (ix2 e k) = g k) (k : Fin 128) :
    val_main_v27 (F := Ideal) x0 x1 x2 x3 x4 x5 (ix2 e k) = lin g x4 (vecOf x5) k := by
  rw [val_main_v27_apply, val_main_v24_apply, val_main_v26_apply, val_main_v25_apply, Ideal.addf_def]
  unfold lin
  refine sum_add_of _ _ _ _ _ _ (fun l => ?_) (fun l => ?_) ?_
  · exact (congrArg (val_main_v23 (F := Ideal) x0 x1 x2 x3) (show lidx_main_v24 (ix2 e k) l = ix2 e l from
      funext fun a => match a with | ⟨0, _⟩ => rfl | ⟨1, _⟩ => rfl)).trans (h23 l)
  · exact congrArg x4 (show ridx_main_v24 (ix2 e k) l = ix2 l k from
      funext fun a => match a with | ⟨0, _⟩ => rfl | ⟨1, _⟩ => rfl)
  · exact congrArg x5 (show idx_main_v25 (idx_main_v26 (ix2 e k)) = ix1 k from
      funext fun a => match a with | ⟨0, _⟩ => rfl)

/-- silu of the second affine row, position by position. -/
theorem edge_silu2 {f : Fin 128 → EReal}
    (h27 : ∀ k : Fin 128, val_main_v27 (F := Ideal) x0 x1 x2 x3 x4 x5 (ix2 e k) = f k) (k : Fin 128) :
    val_main_v28 (F := Ideal) x0 x1 x2 x3 x4 x5 (ix2 e k) = silu (f k) := by
  rw [val_main_v28_apply, val_main_call1_v5_apply, val_main_call1_v4_apply, val_main_call1_cst_0_apply,
    val_main_call1_v3_apply, val_main_call1_v2_apply, val_main_call1_cst_apply, val_main_call1_v1_apply,
    val_main_call1_v0_apply, h27]
  exact silu_host (f k)

/-- The gate: the logistic function of the second hidden row's product with the one-column matrix, plus the scalar. -/
theorem edge_gate {g : Fin 128 → EReal}
    (h28 : ∀ k : Fin 128, val_main_v28 (F := Ideal) x0 x1 x2 x3 x4 x5 (ix2 e k) = g k) :
    val_main_v38 (F := Ideal) x0 x1 x2 x3 x4 x5 x6 x7 (ix2 e (0 : Fin 1))
      = Ideal.logistic ((∑ l : Fin 128, g l * x6 (ix2 l (0 : Fin 1))) + x7 (ix1 (0 : Fin 1))) := by
  have h32 : val_main_v32 (F := Ideal) x0 x1 x2 x3 x4 x5 x6 x7 (ix2 e (0 : Fin 1))
      = (∑ l : Fin 128, g l * x6 (ix2 l (0 : Fin 1))) + x7 (ix1 (0 : Fin 1)) := by
    rw [val_main_v32_apply, val_main_v29_apply, val_main_v31_apply, val_main_v30_apply, Ideal.addf_def]
    refine sum_add_of _ _ _ _ _ _ (fun l => ?_) (fun l => ?_) ?_
    · exact (congrArg (val_main_v28 (F := Ideal) x0 x1 x2 x3 x4 x5)
        (show lidx_main_v29 (ix2 e (0 : Fin 1)) l = ix2 e l from
          funext fun a => match a with | ⟨0, _⟩ => rfl | ⟨1, _⟩ => rfl)).trans (h28 l)
    · exact congrArg x6 (show ridx_main_v29 (ix2 e (0 : Fin 1)) l = ix2 l (0 : Fin 1) from
        funext fun a => match a with | ⟨0, _⟩ => rfl | ⟨1, _⟩ => rfl)
    · exact congrArg x7 (show idx_main_v30 (idx_main_v31 (ix2 e (0 : Fin 1))) = ix1 (0 : Fin 1) from
        funext fun a => match a with | ⟨0, _⟩ => rfl)
  rw [val_main_v38_apply, val_main_v37_apply, val_main_cst_3_apply, val_main_v36_apply, val_main_v35_apply,
    val_main_cst_apply, val_main_v34_apply, val_main_v33_apply, h32]
  exact logistic_host _

/-- The message: the second hidden row times the gate, the gate being the same along the row. -/
theorem edge_out {g : Fin 128 → EReal}
    (h28 : ∀ k : Fin 128, val_main_v28 (F := Ideal) x0 x1 x2 x3 x4 x5 (ix2 e k) = g k) (q : Fin 128) :
    val_main_v40 (F := Ideal) x0 x1 x2 x3 x4 x5 x6 x7 (ix2 e q)
      = g q * Ideal.logistic ((∑ l : Fin 128, g l * x6 (ix2 l (0 : Fin 1))) + x7 (ix1 (0 : Fin 1))) := by
  have e39 : idx_main_v39 (ix2 e q) = ix2 e (0 : Fin 1) :=
    funext fun a => match a with | ⟨0, _⟩ => rfl | ⟨1, _⟩ => rfl
  rw [val_main_v40_apply, val_main_v39_apply, Ideal.mulf_def, h28, e39, edge_gate (x6 := x6) (x7 := x7) h28]

/-- The whole edge chain at row e, from the joined row on. -/
theorem edge_core {r c : Fin 128 → EReal}
    (h18 : ∀ l : Fin 256, val_main_v18 (F := Ideal) x0 x1 (ix2 e l) = cat r c l) (q : Fin 128) :
    val_main_v40 (F := Ideal) x0 x1 x2 x3 x4 x5 x6 x7 (ix2 e q)
      = edgeRow r c x2 (vecOf x3) x4 (vecOf x5) x6 (x7 (ix1 (0 : Fin 1))) q := by
  have h22 : ∀ k : Fin 128, val_main_v22 (F := Ideal) x0 x1 x2 x3 (ix2 e k) = lin (cat r c) x2 (vecOf x3) k :=
    fun k => edge_lin1 h18 k
  have h23 : ∀ k : Fin 128, val_main_v23 (F := Ideal) x0 x1 x2 x3 (ix2 e k) = edgeHid1 r c x2 (vecOf x3) k :=
    fun k => edge_silu1 h22 k
  have h27 : ∀ k : Fin 128, val_main_v27 (F := Ideal) x0 x1 x2 x3 x4 x5 (ix2 e k)
      = lin (edgeHid1 r c x2 (vecOf x3)) x4 (vecOf x5) k := fun k => edge_lin2 h23 k
  have h28 : ∀ k : Fin 128, val_main_v28 (F := Ideal) x0 x1 x2 x3 x4 x5 (ix2 e k)
      = edgeHid2 r c x2 (vecOf x3) x4 (vecOf x5) k := fun k => edge_silu2 h27 k
  exact edge_out h28 q

/-! ### The node chain, stage by stage, at row n -/

/-- The first product plus bias: an affine map of the joined row. -/
theorem node_lin1 {r c : Fin 128 → EReal}
    (h46 : ∀ l : Fin 256, val_main_v46 (F := Ideal) x0 x1 x2 x3 x4 x5 x6 x7 (ix2 n l) = cat r c l) (k : Fin 128) :
    val_main_v50 (F := Ideal) x0 x1 x2 x3 x4 x5 x6 x7 x8 x9 (ix2 n k) = lin (cat r c) x8 (vecOf x9) k := by
  rw [val_main_v50_apply, val_main_v47_apply, val_main_v49_apply, val_main_v48_apply, Ideal.addf_def]
  unfold lin
  refine sum_add_of _ _ _ _ _ _ (fun l => ?_) (fun l => ?_) ?_
  · exact (congrArg (val_main_v46 (F := Ideal) x0 x1 x2 x3 x4 x5 x6 x7) (show lidx_main_v47 (ix2 n k) l = ix2 n l from
      funext fun a => match a with | ⟨0, _⟩ => rfl | ⟨1, _⟩ => rfl)).trans (h46 l)
  · exact congrArg x8 (show ridx_main_v47 (ix2 n k) l = ix2 l k from
      funext fun a => match a with | ⟨0, _⟩ => rfl | ⟨1, _⟩ => rfl)
  · exact congrArg x9 (show idx_main_v48 (idx_main_v49 (ix2 n k)) = ix1 k from
      funext fun a => match a with | ⟨0, _⟩ => rfl)

/-- silu of the affine row, position by position. -/
theorem node_silu {f : Fin 128 → EReal}
    (h50 : ∀ k : Fin 128, val_main_v50 (F := Ideal) x0 x1 x2 x3 x4 x5 x6 x7 x8 x9 (ix2 n k) = f k) (k : Fin 128) :
    val_main_v51 (F := Ideal) x0 x1 x2 x3 x4 x5 x6 x7 x8 x9 (ix2 n k) = silu (f k) := by
  rw [val_main_v51_apply, val_main_call2_v5_apply, val_main_call2_v4_apply, val_main_call2_cst_0_apply,
    val_main_call2_v3_apply, val_main_call2_v2_apply, val_main_call2_cst_apply, val_main_call2_v1_apply,
    val_main_call2_v0_apply, h50]
  exact silu_host (f k)

/-- The second product plus bias: an affine map of the hidden row. -/
theorem node_lin2 {g : Fin 128 → EReal}
    (h51 : ∀ k : Fin 128, val_main_v51 (F := Ideal) x0 x1 x2 x3 x4 x5 x6 x7 x8 x9 (ix2 n k) = g k) (k : Fin 128) :
    val_main_v55 (F := Ideal) x0 x1 x2 x3 x4 x5 x6 x7 x8 x9 x10 x11 (ix2 n k) = lin g x10 (vecOf x11) k := by
  rw [val_main_v55_apply, val_main_v52_apply, val_main_v54_apply, val_main_v53_apply, Ideal.addf_def]
  unfold lin
  refine sum_add_of _ _ _ _ _ _ (fun l => ?_) (fun l => ?_) ?_
  · exact (congrArg (val_main_v51 (F := Ideal) x0 x1 x2 x3 x4 x5 x6 x7 x8 x9) (show lidx_main_v52 (ix2 n k) l = ix2 n l from
      funext fun a => match a with | ⟨0, _⟩ => rfl | ⟨1, _⟩ => rfl)).trans (h51 l)
  · exact congrArg x10 (show ridx_main_v52 (ix2 n k) l = ix2 l k from
      funext fun a => match a with | ⟨0, _⟩ => rfl | ⟨1, _⟩ => rfl)
  · exact congrArg x11 (show idx_main_v53 (idx_main_v54 (ix2 n k)) = ix1 k from
      funext fun a => match a with | ⟨0, _⟩ => rfl)

/-- The whole node chain at row n, from the joined row on: the residual added to the second affine row. -/
theorem node_core {c : Fin 128 → EReal}
    (h46 : ∀ l : Fin 256, val_main_v46 (F := Ideal) x0 x1 x2 x3 x4 x5 x6 x7 (ix2 n l) = cat (rowOf x0 n) c l) (q : Fin 128) :
    val_main_v56 (F := Ideal) x0 x1 x2 x3 x4 x5 x6 x7 x8 x9 x10 x11 (ix2 n q)
      = nodeRow (rowOf x0 n) c x8 (vecOf x9) x10 (vecOf x11) q := by
  have h50 : ∀ k : Fin 128, val_main_v50 (F := Ideal) x0 x1 x2 x3 x4 x5 x6 x7 x8 x9 (ix2 n k)
      = lin (cat (rowOf x0 n) c) x8 (vecOf x9) k := fun k => node_lin1 h46 k
  have h51 : ∀ k : Fin 128, val_main_v51 (F := Ideal) x0 x1 x2 x3 x4 x5 x6 x7 x8 x9 (ix2 n k)
      = nodeHid (rowOf x0 n) c x8 (vecOf x9) k := fun k => node_silu h50 k
  have h55 : val_main_v55 (F := Ideal) x0 x1 x2 x3 x4 x5 x6 x7 x8 x9 x10 x11 (ix2 n q)
      = lin (nodeHid (rowOf x0 n) c x8 (vecOf x9)) x10 (vecOf x11) q := node_lin2 h51 q
  rw [val_main_v56_apply, Ideal.addf_def, h55]
  rfl

end Stages

/-- The reference's edge messages (the stage of %40) at (e, q): the edge function of row e of the two gathered arrays
    (the stages of %10 and %17, kept as they are: nothing here looks inside a gather). -/
theorem edge_stage (x0 : FVec Ideal S50000x128 .f32) (x1 : IVec S2x800000 32) (x2 : FVec Ideal S256x128 .f32) (x3 : FVec Ideal S128 .f32)
    (x4 : FVec Ideal S128x128 .f32) (x5 : FVec Ideal S128 .f32) (x6 : FVec Ideal S128x1 .f32) (x7 : FVec Ideal S1 .f32)
    (e : Fin 800000) (q : Fin 128) :
    val_main_v40 (F := Ideal) x0 x1 x2 x3 x4 x5 x6 x7 (ix2 e q)
      = edgeRow (rowOf (val_main_v10 (F := Ideal) x0 x1) e) (rowOf (val_main_v17 (F := Ideal) x0 x1) e)
          x2 (vecOf x3) x4 (vecOf x5) x6 (x7 (ix1 (0 : Fin 1))) q := by
  have h18 : ∀ l : Fin 256, val_main_v18 (F := Ideal) x0 x1 (ix2 e l)
      = cat (rowOf (val_main_v10 (F := Ideal) x0 x1) e) (rowOf (val_main_v17 (F := Ideal) x0 x1) e) l := fun l => by
    unfold val_main_v18
    exact cat_stage (val_main_v10 (F := Ideal) x0 x1) (val_main_v17 (F := Ideal) x0 x1) _ e l
  exact edge_core h18 q

/-- The reference's result (the stage of %56) at (n, q): the node function of row n of the features and of the
    aggregated messages (the stage of %45, kept as it is: nothing here looks inside the scatter). -/
theorem node_stage (x0 : FVec Ideal S50000x128 .f32) (x1 : IVec S2x800000 32) (x2 : FVec Ideal S256x128 .f32) (x3 : FVec Ideal S128 .f32)
    (x4 : FVec Ideal S128x128 .f32) (x5 : FVec Ideal S128 .f32) (x6 : FVec Ideal S128x1 .f32) (x7 : FVec Ideal S1 .f32)
    (x8 : FVec Ideal S256x128 .f32) (x9 : FVec Ideal S128 .f32) (x10 : FVec Ideal S128x128 .f32) (x11 : FVec Ideal S128 .f32)
    (n : Fin 50000) (q : Fin 128) :
    val_main_v56 (F := Ideal) x0 x1 x2 x3 x4 x5 x6 x7 x8 x9 x10 x11 (ix2 n q)
      = nodeRow (rowOf x0 n) (rowOf (val_main_v45 (F := Ideal) x0 x1 x2 x3 x4 x5 x6 x7) n) x8 (vecOf x9) x10 (vecOf x11) q := by
  have h46 : ∀ l : Fin 256, val_main_v46 (F := Ideal) x0 x1 x2 x3 x4 x5 x6 x7 (ix2 n l)
      = cat (rowOf x0 n) (rowOf (val_main_v45 (F := Ideal) x0 x1 x2 x3 x4 x5 x6 x7) n) l := fun l => by
    unfold val_main_v46
    exact cat_stage x0 (val_main_v45 (F := Ideal) x0 x1 x2 x3 x4 x5 x6 x7) _ n l
  exact node_core h46 q

end Cert.ReferenceIdeal.Stage

end
-- ==== Proof.RefBridge.lean ====
/-
  The layer as ONE function of the twelve argument arrays, and the reference's result as that function.

  `G` gathers the endpoint rows of every edge, applies the edge function row by row, sums the messages per receiving
  node and divides by 100, and applies the node function row by row. The gathers and the per-node sum are kept as the
  reference's own whole-array stages — nothing here looks inside them; only the two dense stages are opened, by their
  reads at an index.
-/
import proofs.«139602_j75024488726858_1_alg».proof.Proof.RefRead
import proofs.«139602_j75024488726858_1_alg».proof.Proof.RefStage
import proofs.«139602_j75024488726858_1_alg».proof.Proof.Spec

noncomputable section

namespace Cert.ReferenceIdeal.Bridge

open Cert.ReferenceIdeal Cert.ReferenceIdeal.Read Cert.ReferenceIdeal.Stage Cert.Gcl
open Idealize.ShloMosaic Idealize.ShloMosaic.ValueIdx

/-- Summing the messages per receiving node (the index row is the first row of the edge list) and dividing by 100:
    the reference's stages %41 … %45 over an arbitrary array of messages. -/
def aggOf (x1 : IVec S2x800000 32) (ef : FVec Ideal S800000x128 .f32) : FVec Ideal S50000x128 .f32 :=
  Host.divf (Host.scatterAdd scatter_S50000x128_S800000x1_S800000x128_1_0_0_1 (val_main_v41 (F := Ideal))
      (val_main_v42 (F := Ideal) x1) ef)
    (val_main_v44 (F := Ideal))

/-- The aggregated messages are that function of the edge messages. -/
theorem v45_eq (x0 : FVec Ideal S50000x128 .f32) (x1 : IVec S2x800000 32) (x2 : FVec Ideal S256x128 .f32) (x3 : FVec Ideal S128 .f32)
    (x4 : FVec Ideal S128x128 .f32) (x5 : FVec Ideal S128 .f32) (x6 : FVec Ideal S128x1 .f32) (x7 : FVec Ideal S1 .f32) :
    val_main_v45 (F := Ideal) x0 x1 x2 x3 x4 x5 x6 x7 = aggOf x1 (val_main_v40 (F := Ideal) x0 x1 x2 x3 x4 x5 x6 x7) := rfl

/-- The edge messages of the arguments: the edge function row by row of the gathered endpoint rows. -/
def edgeMsgs (x0 : FVec Ideal S50000x128 .f32) (x1 : IVec S2x800000 32) (x2 : FVec Ideal S256x128 .f32) (x3 : FVec Ideal S128 .f32)
    (x4 : FVec Ideal S128x128 .f32) (x5 : FVec Ideal S128 .f32) (x6 : FVec Ideal S128x1 .f32) (x7 : FVec Ideal S1 .f32) : FVec Ideal S800000x128 .f32 :=
  edgeArr (val_main_v10 (F := Ideal) x0 x1) (val_main_v17 (F := Ideal) x0 x1) x2 (vecOf x3) x4 (vecOf x5) x6 (x7 (ix1 (0 : Fin 1)))

/-- The layer's result as one function of the argument arrays. -/
def G (x0 : FVec Ideal S50000x128 .f32) (x1 : IVec S2x800000 32) (x2 : FVec Ideal S256x128 .f32) (x3 : FVec Ideal S128 .f32)
    (x4 : FVec Ideal S128x128 .f32) (x5 : FVec Ideal S128 .f32) (x6 : FVec Ideal S128x1 .f32) (x7 : FVec Ideal S1 .f32)
    (x8 : FVec Ideal S256x128 .f32) (x9 : FVec Ideal S128 .f32) (x10 : FVec Ideal S128x128 .f32) (x11 : FVec Ideal S128 .f32) : FVec Ideal S50000x128 .f32 :=
  nodeArr x0 (aggOf x1 (edgeMsgs x0 x1 x2 x3 x4 x5 x6 x7)) x8 (vecOf x9) x10 (vecOf x11)

/-- The reference's edge stage is the edge messages. -/
theorem v40_eq (x0 : FVec Ideal S50000x128 .f32) (x1 : IVec S2x800000 32) (x2 : FVec Ideal S256x128 .f32) (x3 : FVec Ideal S128 .f32)
    (x4 : FVec Ideal S128x128 .f32) (x5 : FVec Ideal S128 .f32) (x6 : FVec Ideal S128x1 .f32) (x7 : FVec Ideal S1 .f32) :
    val_main_v40 (F := Ideal) x0 x1 x2 x3 x4 x5 x6 x7 = edgeMsgs x0 x1 x2 x3 x4 x5 x6 x7 := by
  funext i
  obtain ⟨e, q, rfl⟩ : ∃ (e : Fin 800000) (q : Fin 128), i = ix2 e q := ⟨i 0, i 1, eq_ix2 i⟩
  rw [edge_stage]
  rfl

/-- THE REFERENCE'S RESULT is `G` of the arguments. -/
theorem result_eq (x0 : FVec Ideal S50000x128 .f32) (x1 : IVec S2x800000 32) (x2 : FVec Ideal S256x128 .f32) (x3 : FVec Ideal S128 .f32)
    (x4 : FVec Ideal S128x128 .f32) (x5 : FVec Ideal S128 .f32) (x6 : FVec Ideal S128x1 .f32) (x7 : FVec Ideal S1 .f32)
    (x8 : FVec Ideal S256x128 .f32) (x9 : FVec Ideal S128 .f32) (x10 : FVec Ideal S128x128 .f32) (x11 : FVec Ideal S128 .f32) :
    val_main_v56 (F := Ideal) x0 x1 x2 x3 x4 x5 x6 x7 x8 x9 x10 x11 = G x0 x1 x2 x3 x4 x5 x6 x7 x8 x9 x10 x11 := by
  funext i
  obtain ⟨n, q, rfl⟩ : ∃ (n : Fin 50000) (q : Fin 128), i = ix2 n q := ⟨i 0, i 1, eq_ix2 i⟩
  rw [node_stage, v45_eq, v40_eq]
  rfl

end Cert.ReferenceIdeal.Bridge

end
-- ==== Proof.KHost.lean ====
/-
  The kernel program's two stretches of host operations, read at the buffers the regions take.

  Before the first region: the two index rows of the edge list are cut out, negative entries wrapped, and the
  feature rows gathered at them — the same operations, on the same arguments, as the reference's (the change of
  float format on the way is the identity on extended reals) —; the weights change format (identity) and the bias
  vectors are recast as one-row matrices. Between the regions: the messages are summed per receiving node and
  divided by the constant 100 — again the reference's own operations —, and the node weights and biases are
  prepared as before. Everything is stated over an ARBITRARY valuation the stretch starts from.
-/
import proofs.«139602_j75024488726858_1_alg».proof.Proof.Gen.KernelIdeal.Frame
import proofs.«139602_j75024488726858_1_alg».proof.Proof.RefRead
import proofs.«139602_j75024488726858_1_alg».proof.Proof.RefBridge
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable (W : Valuation τ sig (Elt Ideal))

/-- Summing the messages per receiving node and dividing by 100, in the kernel program's spelling. -/
def aggK (idx : IVec S800000 32) (ef : FVec Ideal S800000x128 .f32) : FVec Ideal S50000x128 .f32 :=
  Host.divf (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 idx) ef)
    (broadcastInDim S50000x128 ![] bcast_S_S50000x128 (constant (F := Ideal) S_ .f32 0x42C80000#32))

/-- The two spellings are one function: the same operations with the same dimension numbers and constants. -/
theorem aggK_eq (x1 : IVec Cert.ReferenceIdeal.S2x800000 32) (ef : FVec Ideal Cert.ReferenceIdeal.S800000x128 .f32) :
    aggK (Cert.ReferenceIdeal.Read.val_main_v1 (F := Ideal) x1) ef = Cert.ReferenceIdeal.Bridge.aggOf x1 ef := rfl

/-! ## Before the first region -/

theorem pre_v11 : after hostOps0 W (Proc.devRef .tc main_v11)
    = Cert.ReferenceIdeal.Read.val_main_v10 (F := Ideal) (W (Proc.devRef .tc main_arg0)) (W (Proc.devRef .tc main_arg1)) := by
  after_results_simp <;> rfl

theorem pre_v18 : after hostOps0 W (Proc.devRef .tc main_v18)
    = Cert.ReferenceIdeal.Read.val_main_v17 (F := Ideal) (W (Proc.devRef .tc main_arg0)) (W (Proc.devRef .tc main_arg1)) := by
  after_results_simp <;> rfl

theorem pre_v1 : after hostOps0 W (Proc.devRef .tc main_v1) = Cert.ReferenceIdeal.Read.val_main_v1 (F := Ideal) (W (Proc.devRef .tc main_arg1)) := by
  after_results_simp <;> rfl

theorem pre_v19 : after hostOps0 W (Proc.devRef .tc main_v19) = (W (Proc.devRef .tc main_arg2)) := by after_results; rfl
theorem pre_v20 : after hostOps0 W (Proc.devRef .tc main_v20) = (W (Proc.devRef .tc main_arg4)) := by after_results; rfl
theorem pre_v21 : after hostOps0 W (Proc.devRef .tc main_v21) = (W (Proc.devRef .tc main_arg6)) := by after_results; rfl
theorem pre_v22 : after hostOps0 W (Proc.devRef .tc main_v22) = shapeCast S1x128 (W (Proc.devRef .tc main_arg3)) shapeCasts_S128_S1x128 := by
  after_results; rfl
theorem pre_v23 : after hostOps0 W (Proc.devRef .tc main_v23) = shapeCast S1x128 (W (Proc.devRef .tc main_arg5)) shapeCasts_S128_S1x128 := by
  after_results; rfl
theorem pre_v24 : after hostOps0 W (Proc.devRef .tc main_v24) = shapeCast S1x1 (W (Proc.devRef .tc main_arg7)) shapeCasts_S1_S1x1 := by
  after_results; rfl
theorem pre_arg0 : after hostOps0 W (Proc.devRef .tc main_arg0) = (W (Proc.devRef .tc main_arg0)) := by after_results
theorem pre_arg8 : after hostOps0 W (Proc.devRef .tc main_arg8) = (W (Proc.devRef .tc main_arg8)) := by after_results
theorem pre_arg9 : after hostOps0 W (Proc.devRef .tc main_arg9) = (W (Proc.devRef .tc main_arg9)) := by after_results
theorem pre_arg10 : after hostOps0 W (Proc.devRef .tc main_arg10) = (W (Proc.devRef .tc main_arg10)) := by after_results
theorem pre_arg11 : after hostOps0 W (Proc.devRef .tc main_arg11) = (W (Proc.devRef .tc main_arg11)) := by after_results

/-! ## Between the regions -/

theorem mid_v30 : after hostOps1 W (Proc.devRef .tc main_v30) = aggK (W (Proc.devRef .tc main_v1)) (W (Proc.devRef .tc main_v25)) := by
  after_results; rfl
theorem mid_v31 : after hostOps1 W (Proc.devRef .tc main_v31) = (W (Proc.devRef .tc main_arg8)) := by after_results; rfl
theorem mid_v32 : after hostOps1 W (Proc.devRef .tc main_v32) = (W (Proc.devRef .tc main_arg10)) := by after_results; rfl
theorem mid_v33 : after hostOps1 W (Proc.devRef .tc main_v33) = shapeCast S1x128 (W (Proc.devRef .tc main_arg9)) shapeCasts_S128_S1x128 := by
  after_results; rfl
theorem mid_v34 : after hostOps1 W (Proc.devRef .tc main_v34) = shapeCast S1x128 (W (Proc.devRef .tc main_arg11)) shapeCasts_S128_S1x128 := by
  after_results; rfl
theorem mid_arg0 : after hostOps1 W (Proc.devRef .tc main_arg0) = (W (Proc.devRef .tc main_arg0)) := by after_results

end Cert.KernelIdeal.HostReads

end
-- ==== Proof.KValue.lean ====
/-
  The kernel program's result array, as the layer's one function of the argument arrays.

  Read backwards from the end of @main: the result array is what the second region leaves, the node function row by
  row of the arrays that region found; those are the features (an argument no operation writes), the aggregated
  messages (the per-node sum, divided by 100, of what the FIRST region left: the edge function row by row of the
  gathered endpoint rows), and the node weights and biases as the host prepared them (a change of float format, which
  is the identity on extended reals, and a recast of a bias vector as a one-row matrix).
-/
import proofs.«139602_j75024488726858_1_alg».proof.Proof.KRunAll
import proofs.«139602_j75024488726858_1_alg».proof.Proof.KEdgeBlocks
import proofs.«139602_j75024488726858_1_alg».proof.Proof.KNodeBlocks
import proofs.«139602_j75024488726858_1_alg».proof.Proof.KHost
import proofs.«139602_j75024488726858_1_alg».proof.Proof.RefBridge
import Idealize.ShloMosaic.Lib.Pipeline.Value
import Idealize.ShloMosaic.Lib.ValueLayout

set_option maxRecDepth 16384

noncomputable section

namespace Cert.KernelIdeal.ValueOf

open Cert.KernelIdeal Cert.KernelIdeal.Gen Cert.KernelIdeal.HostReads Cert.Gcl
open Idealize.ShloMosaic Idealize.ShloMosaic.TcCoe Idealize.ShloMosaic.ValueIdx Idealize.SL.Sem Idealize.ShloMosaic.StableHlo
open Cert.ReferenceIdeal.Bridge (G aggOf edgeMsgs)

variable (m : (ℓ : Loc nD τ sig) → Buf (Elt Ideal) ℓ) (ρ : Dev nD → PrngReg)

/-- A bias vector recast as a one-row matrix: its only row is the vector. -/
theorem row0_cast (b : S128.Idx → EReal) (h : S128.ShapeCasts S1x128) : row0 (shapeCast S1x128 b h) = vecOf b := by
  funext j
  show shapeCast S1x128 b h (ix2 (0 : Fin 1) j) = b (ix1 j)
  exact shapeCast_apply b h (ix2 (0 : Fin 1) j) (ix1 j) (by
    rewrite [Shape.rowMajor_val_two, Shape.rowMajor_val_one]; show j.val = 0 * 128 + j.val; omega)

/-- A one-element vector recast as a 1×1 matrix: its entry is the vector's. -/
theorem cast_11 (b : S1.Idx → EReal) (h : S1.ShapeCasts S1x1) :
    shapeCast S1x1 b h (ix2 (0 : Fin 1) (0 : Fin 1)) = b (ix1 (0 : Fin 1)) :=
  shapeCast_apply b h (ix2 (0 : Fin 1) (0 : Fin 1)) (ix1 (0 : Fin 1)) (by
    rewrite [Shape.rowMajor_val_two, Shape.rowMajor_val_one]; rfl)

/-! ## What the first region finds, and leaves -/

theorem V1_v11 (c : Dev nD) : V1 m ρ c main_v11 = Cert.ReferenceIdeal.Read.val_main_v10 (F := Ideal) (m ((c : Thread nD τ).loc main_arg0)) (m ((c : Thread nD τ).loc main_arg1)) := pre_v11 _
theorem V1_v18 (c : Dev nD) : V1 m ρ c main_v18 = Cert.ReferenceIdeal.Read.val_main_v17 (F := Ideal) (m ((c : Thread nD τ).loc main_arg0)) (m ((c : Thread nD τ).loc main_arg1)) := pre_v18 _
theorem V1_v19 (c : Dev nD) : V1 m ρ c main_v19 = (m ((c : Thread nD τ).loc main_arg2)) := pre_v19 _
theorem V1_v20 (c : Dev nD) : V1 m ρ c main_v20 = (m ((c : Thread nD τ).loc main_arg4)) := pre_v20 _
theorem V1_v21 (c : Dev nD) : V1 m ρ c main_v21 = (m ((c : Thread nD τ).loc main_arg6)) := pre_v21 _
theorem V1_v22 (c : Dev nD) : V1 m ρ c main_v22 = shapeCast S1x128 (m ((c : Thread nD τ).loc main_arg3)) shapeCasts_S128_S1x128 := pre_v22 _
theorem V1_v23 (c : Dev nD) : V1 m ρ c main_v23 = shapeCast S1x128 (m ((c : Thread nD τ).loc main_arg5)) shapeCasts_S128_S1x128 := pre_v23 _
theorem V1_v24 (c : Dev nD) : V1 m ρ c main_v24 = shapeCast S1x1 (m ((c : Thread nD τ).loc main_arg7)) shapeCasts_S1_S1x1 := pre_v24 _

/-- The message array after the first region: the edge messages of the arguments. -/
theorem W2_v25 (hE : EdgeBlocks.EdgePayload) (c : Dev nD) :
    W2 m ρ c (Proc.devRef .tc main_v25) = edgeMsgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W2_arr m ρ c 8).trans ((EdgeBlocks.final (V1 m ρ) hE c).trans ?_)
  unfold EdgeBlocks.edgeOf edgeMsgs
  rw [V1_v11, V1_v18, V1_v19, V1_v20, V1_v21, V1_v22, V1_v23, V1_v24, row0_cast, row0_cast, cast_11]

/-- Buffers the first region does not take keep what the first host stretch left. -/
theorem W2_v1 (c : Dev nD) : W2 m ρ c (Proc.devRef .tc main_v1) = Cert.ReferenceIdeal.Read.val_main_v1 (F := Ideal) (m ((c : Thread nD τ).loc main_arg1)) :=
  (W2_of_ne m ρ c main_v1 (by decide)).trans (pre_v1 _)
theorem W2_arg0 (c : Dev nD) : W2 m ρ c (Proc.devRef .tc main_arg0) = (m ((c : Thread nD τ).loc main_arg0)) :=
  (W2_of_ne m ρ c main_arg0 (by decide)).trans (pre_arg0 _)
theorem W2_arg8 (c : Dev nD) : W2 m ρ c (Proc.devRef .tc main_arg8) = (m ((c : Thread nD τ).loc main_arg8)) :=
  (W2_of_ne m ρ c main_arg8 (by decide)).trans (pre_arg8 _)
theorem W2_arg9 (c : Dev nD) : W2 m ρ c (Proc.devRef .tc main_arg9) = (m ((c : Thread nD τ).loc main_arg9)) :=
  (W2_of_ne m ρ c main_arg9 (by decide)).trans (pre_arg9 _)
theorem W2_arg10 (c : Dev nD) : W2 m ρ c (Proc.devRef .tc main_arg10) = (m ((c : Thread nD τ).loc main_arg10)) :=
  (W2_of_ne m ρ c main_arg10 (by decide)).trans (pre_arg10 _)
theorem W2_arg11 (c : Dev nD) : W2 m ρ c (Proc.devRef .tc main_arg11) = (m ((c : Thread nD τ).loc main_arg11)) :=
  (W2_of_ne m ρ c main_arg11 (by decide)).trans (pre_arg11 _)

/-! ## What the second region finds, and leaves -/

theorem V3_arg0 (c : Dev nD) : V3 m ρ c main_arg0 = (m ((c : Thread nD τ).loc main_arg0)) := (mid_arg0 _).trans (W2_arg0 m ρ c)
theorem V3_v31 (c : Dev nD) : V3 m ρ c main_v31 = (m ((c : Thread nD τ).loc main_arg8)) := (mid_v31 _).trans (W2_arg8 m ρ c)
theorem V3_v32 (c : Dev nD) : V3 m ρ c main_v32 = (m ((c : Thread nD τ).loc main_arg10)) := (mid_v32 _).trans (W2_arg10 m ρ c)
theorem V3_v33 (c : Dev nD) : V3 m ρ c main_v33 = shapeCast S1x128 (m ((c : Thread nD τ).loc main_arg9)) shapeCasts_S128_S1x128 :=
  (mid_v33 _).trans (congrArg (fun b => shapeCast S1x128 b shapeCasts_S128_S1x128) (W2_arg9 m ρ c))
theorem V3_v34 (c : Dev nD) : V3 m ρ c main_v34 = shapeCast S1x128 (m ((c : Thread nD τ).loc main_arg11)) shapeCasts_S128_S1x128 :=
  (mid_v34 _).trans (congrArg (fun b => shapeCast S1x128 b shapeCasts_S128_S1x128) (W2_arg11 m ρ c))
theorem V3_v30 (hE : EdgeBlocks.EdgePayload) (c : Dev nD) :
    V3 m ρ c main_v30 = aggOf (m ((c : Thread nD τ).loc main_arg1)) (edgeMsgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (mid_v30 _).trans ?_
  rw [W2_v1, W2_v25 m ρ hE]
  exact aggK_eq _ _

/-- THE RESULT ARRAY at the end of @main: the layer's function of the argument arrays. -/
theorem result_eq (hE : EdgeBlocks.EdgePayload) (hN : NodeBlocks.NodePayload) (c : Dev nD) :
    W4 m ρ c (Proc.devRef .tc main_v35) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr m ρ c 6).trans ((NodeBlocks.final (V3 m ρ) hN c).trans ?_)
  unfold NodeBlocks.nodeOf G
  rw [V3_arg0, V3_v30 m ρ hE, V3_v31, V3_v32, V3_v33, V3_v34, row0_cast, row0_cast]

end Cert.KernelIdeal.ValueOf

end
-- ==== Proof.LibRegionAsOp.lean ====
/-
  A kernel region read as one host operation, and a fold over a concatenation.

  A pallas_call's region changes the buffer contents only at its arrays: each ends at what the pipeline's write-backs
  leave, every other buffer keeps what it held. A host operation changes the contents only at its result buffer. So when
  a valuation agrees with the region's exit contents at each array and with the entry contents everywhere else, it IS
  the region's exit valuation; in particular a region whose one output array ends at a function of its (unchanged) input
  arrays leaves exactly what the host operation computing that function would.
-/
import Idealize.ShloMosaic.Lib.Pipeline.FrameSuffix
import Idealize.ShloMosaic.Lib.StableHlo.Run

noncomputable section

namespace Cert.LibRegionAsOp

open Idealize.ShloMosaic Idealize.SL.Sem

variable {nD : Nat} {τ : Topo} {sig : RefSig} {Val : EltTy → Type}

/-- The contents after two lines of operations run one after the other are those after their concatenation. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The contents after a one-operation line. -/
theorem after_single (op : HloOp τ sig Val) (V : Valuation τ sig Val) : StableHlo.after [op] V = op.result V := rfl

/-- A region's exit valuation (its arrays at `A`, everything else as entered) is any valuation `V'` that holds `A` at
    the arrays and the entry contents `V` at every other buffer. -/
theorem withArrays_eq_of {gr W : Nat} (win : Fin W → Pipeline.WinSpec sig gr)
    (hinj : Function.Injective (Pipeline.arrRef win)) (c : Dev nD) (V V' : Valuation τ sig Val)
    (A : (w : Fin W) → Buf Val ((win w).arr.view.loc (c.tc : Thread nD τ)))
    (harr : ∀ w, V' (Proc.devRef .tc (Pipeline.arrRef win w)) = A w)
    (hrest : ∀ b : DevRef τ sig, (∀ w, Proc.devRef .tc (Pipeline.arrRef win w) ≠ b) → V' b = V b) :
    Pipeline.withArrays win c V A = V' := by
  funext b
  by_cases h : ∃ w, Proc.devRef .tc (Pipeline.arrRef win w) = b
  · obtain ⟨w, rfl⟩ := h
    rw [Pipeline.withArrays_arr win hinj, harr]
  · unfold Pipeline.withArrays
    rw [dif_neg h, hrest b fun w e => h ⟨w, e⟩]

end Cert.LibRegionAsOp

end
-- ==== Proof.RefValue.lean ====
/-
  The reference's run read back, in stages.

  The run leaves every buffer at the fold of the 89 host operations over the launch contents. The list is cut into
  seven consecutive stretches — the index preparation and the two gathers; the three dense edge stages; the per-node
  sum; the two dense node stages — and each stretch is read over an ARBITRARY valuation it starts from: the one buffer
  it hands on is the corresponding stage `val_…` of the arguments, provided the buffers it takes hold the earlier
  stages, and it leaves alone the buffers later stretches still need. Composing the seven readings gives the result
  buffer at the last stage `val_main_v56` of the launch contents of the twelve arguments; no operation writes an
  argument.
-/
import proofs.«139602_j75024488726858_1_alg».proof.Proof.RefRun
import proofs.«139602_j75024488726858_1_alg».proof.Proof.RefRead
import proofs.«139602_j75024488726858_1_alg».proof.Proof.LibRegionAsOp

set_option maxRecDepth 8192

noncomputable section

namespace Cert.ReferenceIdeal.Whole

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- Operations 1 … 22 of @main. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- Operations 23 … 36 of @main. -/
abbrev opsB : List (HloOp τ sig (Elt F)) :=
  [ binary main_v10 main_v17 main_v18 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v18 main_arg2 main_v19 ((fun l r => Host.dotGeneral dot_S800000x256_S256x128_S800000x128_1_0_0_1_n_n none l r) : (⟨S800000x256, .f32⟩ : BufTy).Contents (Elt F) → (⟨S256x128, .f32⟩ : BufTy).Contents (Elt F) → (⟨S800000x128, .f32⟩ : BufTy).Contents (Elt F)),
    unary main_arg3 main_v20 (broadcastInDim S1x128 ![1] bcast_S128_S1x128_1 : (⟨S128, .f32⟩ : BufTy).Contents (Elt F) → (⟨S1x128, .f32⟩ : BufTy).Contents (Elt F)),
    unary main_v20 main_v21 (broadcastInDim S800000x128 ![0, 1] bcast_S1x128_S800000x128_0_1 : (⟨S1x128, .f32⟩ : BufTy).Contents (Elt F) → (⟨S800000x128, .f32⟩ : BufTy).Contents (Elt F)),
    binary main_v19 main_v21 main_v22 (addf : (⟨S800000x128, .f32⟩ : BufTy).Contents (Elt F) → (⟨S800000x128, .f32⟩ : BufTy).Contents (Elt F) → (⟨S800000x128, .f32⟩ : BufTy).Contents (Elt F)),
    TRef.unary (TRef.of (T := ⟨S800000x128, .f32⟩) main_v22) (TRef.of (T := ⟨S800000x128, .f32⟩) main_call0_v0) Host.negf,
    TRef.unary (TRef.of (T := ⟨S800000x128, .f32⟩) main_call0_v0) (TRef.of (T := ⟨S800000x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S800000x128, .f32⟩) main_call0_v2) (broadcastInDim S800000x128 ![] bcast_S_S800000x128),
    TRef.binary (TRef.of (T := ⟨S800000x128, .f32⟩) main_call0_v2) (TRef.of (T := ⟨S800000x128, .f32⟩) main_call0_v1) (TRef.of (T := ⟨S800000x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S800000x128, .f32⟩) main_call0_v4) (broadcastInDim S800000x128 ![] bcast_S_S800000x128),
    TRef.binary (TRef.of (T := ⟨S800000x128, .f32⟩) main_call0_v4) (TRef.of (T := ⟨S800000x128, .f32⟩) main_call0_v3) (TRef.of (T := ⟨S800000x128, .f32⟩) main_call0_v5) Host.divf,
    TRef.binary (TRef.of (T := ⟨S800000x128, .f32⟩) main_v22) (TRef.of (T := ⟨S800000x128, .f32⟩) main_call0_v5) (TRef.of (T := ⟨S800000x128, .f32⟩) main_v23) mulf ]

/-- Operations 37 … 49 of @main. -/
abbrev opsC : List (HloOp τ sig (Elt F)) :=
  [ binary main_v23 main_arg4 main_v24 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg5 main_v25 (broadcastInDim S1x128 ![1] bcast_S128_S1x128_1 : (⟨S128, .f32⟩ : BufTy).Contents (Elt F) → (⟨S1x128, .f32⟩ : BufTy).Contents (Elt F)),
    unary main_v25 main_v26 (broadcastInDim S800000x128 ![0, 1] bcast_S1x128_S800000x128_0_1 : (⟨S1x128, .f32⟩ : BufTy).Contents (Elt F) → (⟨S800000x128, .f32⟩ : BufTy).Contents (Elt F)),
    binary main_v24 main_v26 main_v27 (addf : (⟨S800000x128, .f32⟩ : BufTy).Contents (Elt F) → (⟨S800000x128, .f32⟩ : BufTy).Contents (Elt F) → (⟨S800000x128, .f32⟩ : BufTy).Contents (Elt F)),
    TRef.unary (TRef.of (T := ⟨S800000x128, .f32⟩) main_v27) (TRef.of (T := ⟨S800000x128, .f32⟩) main_call1_v0) Host.negf,
    TRef.unary (TRef.of (T := ⟨S800000x128, .f32⟩) main_call1_v0) (TRef.of (T := ⟨S800000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S800000x128, .f32⟩) main_call1_v2) (broadcastInDim S800000x128 ![] bcast_S_S800000x128),
    TRef.binary (TRef.of (T := ⟨S800000x128, .f32⟩) main_call1_v2) (TRef.of (T := ⟨S800000x128, .f32⟩) main_call1_v1) (TRef.of (T := ⟨S800000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S800000x128, .f32⟩) main_call1_v4) (broadcastInDim S800000x128 ![] bcast_S_S800000x128),
    TRef.binary (TRef.of (T := ⟨S800000x128, .f32⟩) main_call1_v4) (TRef.of (T := ⟨S800000x128, .f32⟩) main_call1_v3) (TRef.of (T := ⟨S800000x128, .f32⟩) main_call1_v5) Host.divf,
    TRef.binary (TRef.of (T := ⟨S800000x128, .f32⟩) main_v27) (TRef.of (T := ⟨S800000x128, .f32⟩) main_call1_v5) (TRef.of (T := ⟨S800000x128, .f32⟩) main_v28) mulf ]

/-- Operations 50 … 63 of @main. -/
abbrev opsD : List (HloOp τ sig (Elt F)) :=
  [ binary main_v28 main_arg6 main_v29 ((fun l r => Host.dotGeneral dot_S800000x128_S128x1_S800000x1_1_0_0_1_n_n none l r) : (⟨S800000x128, .f32⟩ : BufTy).Contents (Elt F) → (⟨S128x1, .f32⟩ : BufTy).Contents (Elt F) → (⟨S800000x1, .f32⟩ : BufTy).Contents (Elt F)),
    unary main_arg7 main_v30 (broadcastInDim S1x1 ![1] bcast_S1_S1x1_1 : (⟨S1, .f32⟩ : BufTy).Contents (Elt F) → (⟨S1x1, .f32⟩ : BufTy).Contents (Elt F)),
    unary main_v30 main_v31 (broadcastInDim S800000x1 ![0, 1] bcast_S1x1_S800000x1_0_1 : (⟨S1x1, .f32⟩ : BufTy).Contents (Elt F) → (⟨S800000x1, .f32⟩ : BufTy).Contents (Elt F)),
    binary main_v29 main_v31 main_v32 (addf : (⟨S800000x1, .f32⟩ : BufTy).Contents (Elt F) → (⟨S800000x1, .f32⟩ : BufTy).Contents (Elt F) → (⟨S800000x1, .f32⟩ : BufTy).Contents (Elt F)),
    unary main_v32 main_v33 (Host.negf : (⟨S800000x1, .f32⟩ : BufTy).Contents (Elt F) → (⟨S800000x1, .f32⟩ : BufTy).Contents (Elt F)),
    unary main_v33 main_v34 (Host.exp : (⟨S800000x1, .f32⟩ : BufTy).Contents (Elt F) → (⟨S800000x1, .f32⟩ : BufTy).Contents (Elt F)),
    nullary main_cst (constant S_ .f32 0x3F800000#32),
    unary main_cst main_v35 (broadcastInDim S800000x1 ![] bcast_S_S800000x1 : (⟨S_, .f32⟩ : BufTy).Contents (Elt F) → (⟨S800000x1, .f32⟩ : BufTy).Contents (Elt F)),
    binary main_v35 main_v34 main_v36 (addf : (⟨S800000x1, .f32⟩ : BufTy).Contents (Elt F) → (⟨S800000x1, .f32⟩ : BufTy).Contents (Elt F) → (⟨S800000x1, .f32⟩ : BufTy).Contents (Elt F)),
    nullary main_cst_3 (constant S_ .f32 0x3F800000#32),
    unary main_cst_3 main_v37 (broadcastInDim S800000x1 ![] bcast_S_S800000x1 : (⟨S_, .f32⟩ : BufTy).Contents (Elt F) → (⟨S800000x1, .f32⟩ : BufTy).Contents (Elt F)),
    binary main_v37 main_v36 main_v38 (Host.divf : (⟨S800000x1, .f32⟩ : BufTy).Contents (Elt F) → (⟨S800000x1, .f32⟩ : BufTy).Contents (Elt F) → (⟨S800000x1, .f32⟩ : BufTy).Contents (Elt F)),
    unary main_v38 main_v39 (broadcastInDim S800000x128 ![0, 1] bcast_S800000x1_S800000x128_0_1 : (⟨S800000x1, .f32⟩ : BufTy).Contents (Elt F) → (⟨S800000x128, .f32⟩ : BufTy).Contents (Elt F)),
    binary main_v28 main_v39 main_v40 (mulf : (⟨S800000x128, .f32⟩ : BufTy).Contents (Elt F) → (⟨S800000x128, .f32⟩ : BufTy).Contents (Elt F) → (⟨S800000x128, .f32⟩ : BufTy).Contents (Elt F)) ]

/-- Operations 64 … 70 of @main. -/
abbrev opsE : List (HloOp τ sig (Elt F)) :=
  [ nullary main_cst_4 (constant S_ .f32 0x00000000#32),
    unary main_cst_4 main_v41 (broadcastInDim S50000x128 ![] bcast_S_S50000x128 : (⟨S_, .f32⟩ : BufTy).Contents (Elt F) → (⟨S50000x128, .f32⟩ : BufTy).Contents (Elt F)),
    unary main_v1 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_5 (constant S_ .f32 0x42C80000#32),
    unary main_cst_5 main_v44 (broadcastInDim S50000x128 ![] bcast_S_S50000x128 : (⟨S_, .f32⟩ : BufTy).Contents (Elt F) → (⟨S50000x128, .f32⟩ : BufTy).Contents (Elt F)),
    binary main_v43 main_v44 main_v45 (Host.divf : (⟨S50000x128, .f32⟩ : BufTy).Contents (Elt F) → (⟨S50000x128, .f32⟩ : BufTy).Contents (Elt F) → (⟨S50000x128, .f32⟩ : BufTy).Contents (Elt F)) ]

/-- Operations 71 … 84 of @main. -/
abbrev opsF : List (HloOp τ sig (Elt F)) :=
  [ binary main_arg0 main_v45 main_v46 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v46 main_arg8 main_v47 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg9 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v47 main_v49 main_v50 (addf : (⟨S50000x128, .f32⟩ : BufTy).Contents (Elt F) → (⟨S50000x128, .f32⟩ : BufTy).Contents (Elt F) → (⟨S50000x128, .f32⟩ : BufTy).Contents (Elt F)),
    TRef.unary (TRef.of (T := ⟨S50000x128, .f32⟩) main_v50) (TRef.of (T := ⟨S50000x128, .f32⟩) main_call2_v0) Host.negf,
    TRef.unary (TRef.of (T := ⟨S50000x128, .f32⟩) main_call2_v0) (TRef.of (T := ⟨S50000x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S50000x128, .f32⟩) main_call2_v2) (broadcastInDim S50000x128 ![] bcast_S_S50000x128),
    TRef.binary (TRef.of (T := ⟨S50000x128, .f32⟩) main_call2_v2) (TRef.of (T := ⟨S50000x128, .f32⟩) main_call2_v1) (TRef.of (T := ⟨S50000x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S50000x128, .f32⟩) main_call2_v4) (broadcastInDim S50000x128 ![] bcast_S_S50000x128),
    TRef.binary (TRef.of (T := ⟨S50000x128, .f32⟩) main_call2_v4) (TRef.of (T := ⟨S50000x128, .f32⟩) main_call2_v3) (TRef.of (T := ⟨S50000x128, .f32⟩) main_call2_v5) Host.divf,
    TRef.binary (TRef.of (T := ⟨S50000x128, .f32⟩) main_v50) (TRef.of (T := ⟨S50000x128, .f32⟩) main_call2_v5) (TRef.of (T := ⟨S50000x128, .f32⟩) main_v51) mulf ]

/-- Operations 85 … 89 of @main. -/
abbrev opsG : List (HloOp τ sig (Elt F)) :=
  [ binary main_v51 main_arg10 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v52 main_v54 main_v55 (addf : (⟨S50000x128, .f32⟩ : BufTy).Contents (Elt F) → (⟨S50000x128, .f32⟩ : BufTy).Contents (Elt F) → (⟨S50000x128, .f32⟩ : BufTy).Contents (Elt F)),
    binary main_arg0 main_v55 main_v56 (addf : (⟨S50000x128, .f32⟩ : BufTy).Contents (Elt F) → (⟨S50000x128, .f32⟩ : BufTy).Contents (Elt F) → (⟨S50000x128, .f32⟩ : BufTy).Contents (Elt F)) ]

/-- The seven stretches, in order, are @main's operations. -/
theorem ops_split : (ops : List (HloOp τ sig (Elt F))) = opsA ++ (opsB ++ (opsC ++ (opsD ++ (opsE ++ (opsF ++ opsG))))) := rfl

variable (W : Valuation τ sig (Elt F))

/-! ## Stretch A: the two index rows, wrapped, and the gathered endpoint rows -/

theorem A_v10 : after opsA W (Proc.devRef .tc main_v10) = val_main_v10 (F := F) (W (Proc.devRef .tc main_arg0)) (W (Proc.devRef .tc main_arg1)) := by
  after_results_simp <;> rfl
theorem A_v17 : after opsA W (Proc.devRef .tc main_v17) = val_main_v17 (F := F) (W (Proc.devRef .tc main_arg0)) (W (Proc.devRef .tc main_arg1)) := by
  after_results_simp <;> rfl
theorem A_v1 : after opsA W (Proc.devRef .tc main_v1) = val_main_v1 (F := F) (W (Proc.devRef .tc main_arg1)) := by
  after_results_simp <;> rfl
theorem A_keep_arg0 : after opsA W (Proc.devRef .tc main_arg0) = W (Proc.devRef .tc main_arg0) := by after_results_simp <;> rfl
theorem A_keep_arg2 : after opsA W (Proc.devRef .tc main_arg2) = W (Proc.devRef .tc main_arg2) := by after_results_simp <;> rfl
theorem A_keep_arg3 : after opsA W (Proc.devRef .tc main_arg3) = W (Proc.devRef .tc main_arg3) := by after_results_simp <;> rfl
theorem A_keep_arg4 : after opsA W (Proc.devRef .tc main_arg4) = W (Proc.devRef .tc main_arg4) := by after_results_simp <;> rfl
theorem A_keep_arg5 : after opsA W (Proc.devRef .tc main_arg5) = W (Proc.devRef .tc main_arg5) := by after_results_simp <;> rfl
theorem A_keep_arg6 : after opsA W (Proc.devRef .tc main_arg6) = W (Proc.devRef .tc main_arg6) := by after_results_simp <;> rfl
theorem A_keep_arg7 : after opsA W (Proc.devRef .tc main_arg7) = W (Proc.devRef .tc main_arg7) := by after_results_simp <;> rfl
theorem A_keep_arg8 : after opsA W (Proc.devRef .tc main_arg8) = W (Proc.devRef .tc main_arg8) := by after_results_simp <;> rfl
theorem A_keep_arg9 : after opsA W (Proc.devRef .tc main_arg9) = W (Proc.devRef .tc main_arg9) := by after_results_simp <;> rfl
theorem A_keep_arg10 : after opsA W (Proc.devRef .tc main_arg10) = W (Proc.devRef .tc main_arg10) := by after_results_simp <;> rfl
theorem A_keep_arg11 : after opsA W (Proc.devRef .tc main_arg11) = W (Proc.devRef .tc main_arg11) := by after_results_simp <;> rfl

/-! ## Stretch B: the first dense edge stage -/

theorem B_v23 (x0 : (⟨S50000x128, .f32⟩ : BufTy).Contents (Elt F)) (x1 : (⟨S2x800000, .i32⟩ : BufTy).Contents (Elt F)) (x2 : (⟨S256x128, .f32⟩ : BufTy).Contents (Elt F)) (x3 : (⟨S128, .f32⟩ : BufTy).Contents (Elt F))
    (h10 : W (Proc.devRef .tc main_v10) = val_main_v10 (F := F) x0 x1) (h17 : W (Proc.devRef .tc main_v17) = val_main_v17 (F := F) x0 x1)
    (h2 : W (Proc.devRef .tc main_arg2) = x2) (h3 : W (Proc.devRef .tc main_arg3) = x3) :
    after opsB W (Proc.devRef .tc main_v23) = val_main_v23 (F := F) x0 x1 x2 x3 := by
  after_results_simp
  rw [h10, h17, h2, h3]
  rfl
theorem B_keep_v1 : after opsB W (Proc.devRef .tc main_v1) = W (Proc.devRef .tc main_v1) := by after_results_simp <;> rfl
theorem B_keep_arg0 : after opsB W (Proc.devRef .tc main_arg0) = W (Proc.devRef .tc main_arg0) := by after_results_simp <;> rfl
theorem B_keep_arg4 : after opsB W (Proc.devRef .tc main_arg4) = W (Proc.devRef .tc main_arg4) := by after_results_simp <;> rfl
theorem B_keep_arg5 : after opsB W (Proc.devRef .tc main_arg5) = W (Proc.devRef .tc main_arg5) := by after_results_simp <;> rfl
theorem B_keep_arg6 : after opsB W (Proc.devRef .tc main_arg6) = W (Proc.devRef .tc main_arg6) := by after_results_simp <;> rfl
theorem B_keep_arg7 : after opsB W (Proc.devRef .tc main_arg7) = W (Proc.devRef .tc main_arg7) := by after_results_simp <;> rfl
theorem B_keep_arg8 : after opsB W (Proc.devRef .tc main_arg8) = W (Proc.devRef .tc main_arg8) := by after_results_simp <;> rfl
theorem B_keep_arg9 : after opsB W (Proc.devRef .tc main_arg9) = W (Proc.devRef .tc main_arg9) := by after_results_simp <;> rfl
theorem B_keep_arg10 : after opsB W (Proc.devRef .tc main_arg10) = W (Proc.devRef .tc main_arg10) := by after_results_simp <;> rfl
theorem B_keep_arg11 : after opsB W (Proc.devRef .tc main_arg11) = W (Proc.devRef .tc main_arg11) := by after_results_simp <;> rfl

/-! ## Stretch C: the second dense edge stage -/

theorem C_v28 (x0 : (⟨S50000x128, .f32⟩ : BufTy).Contents (Elt F)) (x1 : (⟨S2x800000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F))
    (h23 : W (Proc.devRef .tc main_v23) = val_main_v23 (F := F) x0 x1 x2 x3) (h4 : W (Proc.devRef .tc main_arg4) = x4) (h5 : W (Proc.devRef .tc main_arg5) = x5) :
    after opsC W (Proc.devRef .tc main_v28) = val_main_v28 (F := F) x0 x1 x2 x3 x4 x5 := by
  after_results_simp
  rw [h23, h4, h5]
  rfl
theorem C_keep_v1 : after opsC W (Proc.devRef .tc main_v1) = W (Proc.devRef .tc main_v1) := by after_results_simp <;> rfl
theorem C_keep_arg0 : after opsC W (Proc.devRef .tc main_arg0) = W (Proc.devRef .tc main_arg0) := by after_results_simp <;> rfl
theorem C_keep_arg6 : after opsC W (Proc.devRef .tc main_arg6) = W (Proc.devRef .tc main_arg6) := by after_results_simp <;> rfl
theorem C_keep_arg7 : after opsC W (Proc.devRef .tc main_arg7) = W (Proc.devRef .tc main_arg7) := by after_results_simp <;> rfl
theorem C_keep_arg8 : after opsC W (Proc.devRef .tc main_arg8) = W (Proc.devRef .tc main_arg8) := by after_results_simp <;> rfl
theorem C_keep_arg9 : after opsC W (Proc.devRef .tc main_arg9) = W (Proc.devRef .tc main_arg9) := by after_results_simp <;> rfl
theorem C_keep_arg10 : after opsC W (Proc.devRef .tc main_arg10) = W (Proc.devRef .tc main_arg10) := by after_results_simp <;> rfl
theorem C_keep_arg11 : after opsC W (Proc.devRef .tc main_arg11) = W (Proc.devRef .tc main_arg11) := by after_results_simp <;> rfl

/-! ## Stretch D: the attention gate and the messages -/

theorem D_v40 (x0 : (⟨S50000x128, .f32⟩ : BufTy).Contents (Elt F)) (x1 : (⟨S2x800000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x1, .f32⟩ : BufTy).Contents (Elt F)) (x7 : (⟨S1, .f32⟩ : BufTy).Contents (Elt F))
    (h28 : W (Proc.devRef .tc main_v28) = val_main_v28 (F := F) x0 x1 x2 x3 x4 x5) (h6 : W (Proc.devRef .tc main_arg6) = x6) (h7 : W (Proc.devRef .tc main_arg7) = x7) :
    after opsD W (Proc.devRef .tc main_v40) = val_main_v40 (F := F) x0 x1 x2 x3 x4 x5 x6 x7 := by
  after_results_simp
  rw [h28, h6, h7]
  rfl
theorem D_keep_v1 : after opsD W (Proc.devRef .tc main_v1) = W (Proc.devRef .tc main_v1) := by after_results_simp <;> rfl
theorem D_keep_arg0 : after opsD W (Proc.devRef .tc main_arg0) = W (Proc.devRef .tc main_arg0) := by after_results_simp <;> rfl
theorem D_keep_arg8 : after opsD W (Proc.devRef .tc main_arg8) = W (Proc.devRef .tc main_arg8) := by after_results_simp <;> rfl
theorem D_keep_arg9 : after opsD W (Proc.devRef .tc main_arg9) = W (Proc.devRef .tc main_arg9) := by after_results_simp <;> rfl
theorem D_keep_arg10 : after opsD W (Proc.devRef .tc main_arg10) = W (Proc.devRef .tc main_arg10) := by after_results_simp <;> rfl
theorem D_keep_arg11 : after opsD W (Proc.devRef .tc main_arg11) = W (Proc.devRef .tc main_arg11) := by after_results_simp <;> rfl

/-! ## Stretch E: the per-node sum, divided by 100 -/

theorem E_v45 (x0 : (⟨S50000x128, .f32⟩ : BufTy).Contents (Elt F)) (x1 : (⟨S2x800000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x1, .f32⟩ : BufTy).Contents (Elt F)) (x7 : (⟨S1, .f32⟩ : BufTy).Contents (Elt F))
    (h1 : W (Proc.devRef .tc main_v1) = val_main_v1 (F := F) x1) (h40 : W (Proc.devRef .tc main_v40) = val_main_v40 (F := F) x0 x1 x2 x3 x4 x5 x6 x7) :
    after opsE W (Proc.devRef .tc main_v45) = val_main_v45 (F := F) x0 x1 x2 x3 x4 x5 x6 x7 := by
  after_results_simp
  rw [h1, h40]
  rfl
theorem E_keep_arg0 : after opsE W (Proc.devRef .tc main_arg0) = W (Proc.devRef .tc main_arg0) := by after_results_simp <;> rfl
theorem E_keep_arg8 : after opsE W (Proc.devRef .tc main_arg8) = W (Proc.devRef .tc main_arg8) := by after_results_simp <;> rfl
theorem E_keep_arg9 : after opsE W (Proc.devRef .tc main_arg9) = W (Proc.devRef .tc main_arg9) := by after_results_simp <;> rfl
theorem E_keep_arg10 : after opsE W (Proc.devRef .tc main_arg10) = W (Proc.devRef .tc main_arg10) := by after_results_simp <;> rfl
theorem E_keep_arg11 : after opsE W (Proc.devRef .tc main_arg11) = W (Proc.devRef .tc main_arg11) := by after_results_simp <;> rfl

/-! ## Stretch F: the first dense node stage -/

theorem F_v51 (x0 : (⟨S50000x128, .f32⟩ : BufTy).Contents (Elt F)) (x1 : (⟨S2x800000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x1, .f32⟩ : BufTy).Contents (Elt F)) (x7 : (⟨S1, .f32⟩ : BufTy).Contents (Elt F)) (x8 : (⟨S256x128, .f32⟩ : BufTy).Contents (Elt F)) (x9 : (⟨S128, .f32⟩ : BufTy).Contents (Elt F))
    (h0 : W (Proc.devRef .tc main_arg0) = x0) (h45 : W (Proc.devRef .tc main_v45) = val_main_v45 (F := F) x0 x1 x2 x3 x4 x5 x6 x7)
    (h8 : W (Proc.devRef .tc main_arg8) = x8) (h9 : W (Proc.devRef .tc main_arg9) = x9) :
    after opsF W (Proc.devRef .tc main_v51) = val_main_v51 (F := F) x0 x1 x2 x3 x4 x5 x6 x7 x8 x9 := by
  after_results_simp
  rw [h0, h45, h8, h9]
  rfl
theorem F_keep_arg0 : after opsF W (Proc.devRef .tc main_arg0) = W (Proc.devRef .tc main_arg0) := by after_results_simp <;> rfl
theorem F_keep_arg10 : after opsF W (Proc.devRef .tc main_arg10) = W (Proc.devRef .tc main_arg10) := by after_results_simp <;> rfl
theorem F_keep_arg11 : after opsF W (Proc.devRef .tc main_arg11) = W (Proc.devRef .tc main_arg11) := by after_results_simp <;> rfl

/-! ## Stretch G: the second dense node stage and the residual -/

theorem G_v56 (x0 : (⟨S50000x128, .f32⟩ : BufTy).Contents (Elt F)) (x1 : (⟨S2x800000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x1, .f32⟩ : BufTy).Contents (Elt F)) (x7 : (⟨S1, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F))
    (h0 : W (Proc.devRef .tc main_arg0) = x0) (h51 : W (Proc.devRef .tc main_v51) = val_main_v51 (F := F) x0 x1 x2 x3 x4 x5 x6 x7 x8 x9)
    (h10 : W (Proc.devRef .tc main_arg10) = x10) (h11 : W (Proc.devRef .tc main_arg11) = x11) :
    after opsG W (Proc.devRef .tc main_v56) = val_main_v56 (F := F) x0 x1 x2 x3 x4 x5 x6 x7 x8 x9 x10 x11 := by
  after_results_simp
  rw [h0, h51, h10, h11]
  rfl

/-! ## The seven readings composed -/

/-- The fold of all the operations at the result buffer is the last stage of the valuation at the argument buffers. -/
theorem after_out (V : Valuation τ sig (Elt F)) :
    after ops V (Proc.devRef .tc main_v56)
      = val_main_v56 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [ops_split, Cert.LibRegionAsOp.after_append, Cert.LibRegionAsOp.after_append, Cert.LibRegionAsOp.after_append,
    Cert.LibRegionAsOp.after_append, Cert.LibRegionAsOp.after_append, Cert.LibRegionAsOp.after_append]
  have b23 := B_v23 (after opsA V) _ _ _ _ (A_v10 V) (A_v17 V) (A_keep_arg2 V) (A_keep_arg3 V)
  have b1 := (B_keep_v1 (after opsA V)).trans (A_v1 V)
  have bk0 := (B_keep_arg0 (after opsA V)).trans (A_keep_arg0 V)
  have bk4 := (B_keep_arg4 (after opsA V)).trans (A_keep_arg4 V)
  have bk5 := (B_keep_arg5 (after opsA V)).trans (A_keep_arg5 V)
  have bk6 := (B_keep_arg6 (after opsA V)).trans (A_keep_arg6 V)
  have bk7 := (B_keep_arg7 (after opsA V)).trans (A_keep_arg7 V)
  have bk8 := (B_keep_arg8 (after opsA V)).trans (A_keep_arg8 V)
  have bk9 := (B_keep_arg9 (after opsA V)).trans (A_keep_arg9 V)
  have bk10 := (B_keep_arg10 (after opsA V)).trans (A_keep_arg10 V)
  have bk11 := (B_keep_arg11 (after opsA V)).trans (A_keep_arg11 V)
  have c28 := C_v28 (after opsB (after opsA V)) _ _ _ _ _ _ b23 bk4 bk5
  have c1 := (C_keep_v1 (after opsB (after opsA V))).trans b1
  have ck0 := (C_keep_arg0 (after opsB (after opsA V))).trans bk0
  have ck6 := (C_keep_arg6 (after opsB (after opsA V))).trans bk6
  have ck7 := (C_keep_arg7 (after opsB (after opsA V))).trans bk7
  have ck8 := (C_keep_arg8 (after opsB (after opsA V))).trans bk8
  have ck9 := (C_keep_arg9 (after opsB (after opsA V))).trans bk9
  have ck10 := (C_keep_arg10 (after opsB (after opsA V))).trans bk10
  have ck11 := (C_keep_arg11 (after opsB (after opsA V))).trans bk11
  have d40 := D_v40 (after opsC (after opsB (after opsA V))) _ _ _ _ _ _ _ _ c28 ck6 ck7
  have d1 := (D_keep_v1 (after opsC (after opsB (after opsA V)))).trans c1
  have dk0 := (D_keep_arg0 (after opsC (after opsB (after opsA V)))).trans ck0
  have dk8 := (D_keep_arg8 (after opsC (after opsB (after opsA V)))).trans ck8
  have dk9 := (D_keep_arg9 (after opsC (after opsB (after opsA V)))).trans ck9
  have dk10 := (D_keep_arg10 (after opsC (after opsB (after opsA V)))).trans ck10
  have dk11 := (D_keep_arg11 (after opsC (after opsB (after opsA V)))).trans ck11
  have e45 := E_v45 (after opsD (after opsC (after opsB (after opsA V)))) _ _ _ _ _ _ _ _ d1 d40
  have ek0 := (E_keep_arg0 (after opsD (after opsC (after opsB (after opsA V))))).trans dk0
  have ek8 := (E_keep_arg8 (after opsD (after opsC (after opsB (after opsA V))))).trans dk8
  have ek9 := (E_keep_arg9 (after opsD (after opsC (after opsB (after opsA V))))).trans dk9
  have ek10 := (E_keep_arg10 (after opsD (after opsC (after opsB (after opsA V))))).trans dk10
  have ek11 := (E_keep_arg11 (after opsD (after opsC (after opsB (after opsA V))))).trans dk11
  have f51 := F_v51 (after opsE (after opsD (after opsC (after opsB (after opsA V))))) _ _ _ _ _ _ _ _ _ _ ek0 e45 ek8 ek9
  have fk0 := (F_keep_arg0 (after opsE (after opsD (after opsC (after opsB (after opsA V)))))).trans ek0
  have fk10 := (F_keep_arg10 (after opsE (after opsD (after opsC (after opsB (after opsA V)))))).trans ek10
  have fk11 := (F_keep_arg11 (after opsE (after opsD (after opsC (after opsB (after opsA V)))))).trans ek11
  exact G_v56 (after opsF (after opsE (after opsD (after opsC (after opsB (after opsA V)))))) _ _ _ _ _ _ _ _ _ _ _ _ fk0 f51 fk10 fk11

theorem after_arg0 (V : Valuation τ sig (Elt F)) : after ops V (Proc.devRef .tc main_arg0) = V (Proc.devRef .tc main_arg0) := by
  after_results_simp <;> rfl
theorem after_arg1 (V : Valuation τ sig (Elt F)) : after ops V (Proc.devRef .tc main_arg1) = V (Proc.devRef .tc main_arg1) := by
  after_results_simp <;> rfl
theorem after_arg2 (V : Valuation τ sig (Elt F)) : after ops V (Proc.devRef .tc main_arg2) = V (Proc.devRef .tc main_arg2) := by
  after_results_simp <;> rfl
theorem after_arg3 (V : Valuation τ sig (Elt F)) : after ops V (Proc.devRef .tc main_arg3) = V (Proc.devRef .tc main_arg3) := by
  after_results_simp <;> rfl
theorem after_arg4 (V : Valuation τ sig (Elt F)) : after ops V (Proc.devRef .tc main_arg4) = V (Proc.devRef .tc main_arg4) := by
  after_results_simp <;> rfl
theorem after_arg5 (V : Valuation τ sig (Elt F)) : after ops V (Proc.devRef .tc main_arg5) = V (Proc.devRef .tc main_arg5) := by
  after_results_simp <;> rfl
theorem after_arg6 (V : Valuation τ sig (Elt F)) : after ops V (Proc.devRef .tc main_arg6) = V (Proc.devRef .tc main_arg6) := by
  after_results_simp <;> rfl
theorem after_arg7 (V : Valuation τ sig (Elt F)) : after ops V (Proc.devRef .tc main_arg7) = V (Proc.devRef .tc main_arg7) := by
  after_results_simp <;> rfl
theorem after_arg8 (V : Valuation τ sig (Elt F)) : after ops V (Proc.devRef .tc main_arg8) = V (Proc.devRef .tc main_arg8) := by
  after_results_simp <;> rfl
theorem after_arg9 (V : Valuation τ sig (Elt F)) : after ops V (Proc.devRef .tc main_arg9) = V (Proc.devRef .tc main_arg9) := by
  after_results_simp <;> rfl
theorem after_arg10 (V : Valuation τ sig (Elt F)) : after ops V (Proc.devRef .tc main_arg10) = V (Proc.devRef .tc main_arg10) := by
  after_results_simp <;> rfl
theorem after_arg11 (V : Valuation τ sig (Elt F)) : after ops V (Proc.devRef .tc main_arg11) = V (Proc.devRef .tc main_arg11) := by
  after_results_simp <;> rfl

/-- Every weakly fair execution of the reference terminates with its result at the last stage of the launch contents
    of the arguments, the arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56)
        = val_main_v56 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v56).trans (after_out _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _),
      (h c main_arg11).trans (after_arg11 _)⟩)
    (run m ρ)

end Cert.ReferenceIdeal.Whole

end
-- ==== Proof.lean ====
/-
  One graph-convolution layer with attention-gated messages, computed by two block-wise kernels around host-side
  gathers and a per-node sum, against the same layer written as whole-array operations.

  For features h (50000 nodes × 128), an edge list (row, col) of 800000 edges, and the weights of three small dense
  maps, both programs compute
      out[n] = h[n] + (silu([h[n] | agg[n]] · V₁ + d₁) · V₂ + d₂),
      agg[n] = (Σ_{e : row e = n} msg[e]) / 100,
      msg[e] = m₂ · σ(⟨m₂, a⟩ + α),  m₂ = silu(m₁ · W₂ + b₂),  m₁ = silu([h[row e] | h[col e]] · W₁ + b₁),
  with silu x = x · σ(x) and σ the logistic function. On the extended reals the two programs agree operation for
  operation: the kernel's logistic IS 1 / (1 + e^(−x)), which is how the reference spells it; a change of float format
  is the identity; a matrix product into a zero accumulator and the host's contraction are the same sum over the
  contracted position, in the same order; the gathers and the per-node sum are literally the same host operations on
  the same arguments. What differs is only the arrangement: the kernels work on blocks of 3200 edge rows and 5000
  node rows, and both dense stages act on each row separately, so a block of the result is the row function on the
  block's rows, and the blocks tile the arrays. No law that needs finiteness is used, so the precondition is never
  opened.

  The pieces: `Spec` (the row functions), `KPayload` (each kernel body's arithmetic at an index is the row function),
  `KEdgeBlocks` / `KNodeBlocks` (from blocks to the whole array, per region), `KHost` (the host stretches read at the
  buffers the regions take), `KValue` (the kernel program's result array as the layer's function `G` of the arguments),
  `RefStage` / `RefBridge` (the reference's result is `G` of the arguments), `RefValue` (the reference's run read back).
-/
import proofs.«139602_j75024488726858_1_alg».proof.Defs
import proofs.«139602_j75024488726858_1_alg».proof.Proof.Gen.Kernel
import proofs.«139602_j75024488726858_1_alg».proof.Proof.Gen.Kernel.Skeleton
import proofs.«139602_j75024488726858_1_alg».proof.Proof.Gen.Kernel.Launch
import proofs.«139602_j75024488726858_1_alg».proof.Proof.Gen.Kernel.Points
import proofs.«139602_j75024488726858_1_alg».proof.Proof.Gen.Kernel.Frame
import proofs.«139602_j75024488726858_1_alg».proof.Proof.Gen.KernelIdeal
import proofs.«139602_j75024488726858_1_alg».proof.Proof.Gen.KernelIdeal.Skeleton
import proofs.«139602_j75024488726858_1_alg».proof.Proof.Gen.KernelIdeal.Launch
import proofs.«139602_j75024488726858_1_alg».proof.Proof.Gen.KernelIdeal.Points
import proofs.«139602_j75024488726858_1_alg».proof.Proof.Gen.KernelIdeal.Frame
import proofs.«139602_j75024488726858_1_alg».proof.Proof.Gen.ReferenceIdeal
import proofs.«139602_j75024488726858_1_alg».proof.Proof.Gen.Pre_finite_inputs
import proofs.«139602_j75024488726858_1_alg».proof.Proof.KPayload
import proofs.«139602_j75024488726858_1_alg».proof.Proof.KValue
import proofs.«139602_j75024488726858_1_alg».proof.Proof.RefValue
import proofs.«139602_j75024488726858_1_alg».proof.Proof.RefBridge
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run read back, the result dropped. -/
theorem frame_referenceIdeal : Cert.frame_ReferenceIdeal := fun m ρ _ =>
  (θ_run Cert.ReferenceIdeal.defs _ _).mono (fun _ h c => (h c).2) (Cert.ReferenceIdeal.Whole.run_value (F := Ideal) m ρ)

/-- The idealization rewrote no operation. -/
theorem preserves : Cert.preserves_Kernel_KernelIdeal := trivial

/-- Both idealized programs end with the layer's function `G` of the (agreeing) argument arrays in their result. -/
theorem algebraic : Cert.algebraic_KernelIdeal_ReferenceIdeal := by
  intro m ρ m' ρ' _ hagree
  refine ⟨fun c => Cert.ReferenceIdeal.Bridge.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨?_, ?_⟩) (Cert.KernelIdeal.Whole.run_all (F := Ideal) m ρ)
    · exact (h c _ (Cert.KernelIdeal.Gen.mem_uc Cert.KernelIdeal.main_v35 (by decide))).trans
        (Cert.KernelIdeal.ValueOf.result_eq m ρ Cert.KernelIdeal.Pay.edge_payload Cert.KernelIdeal.Pay.node_payload c)
    · exact ⟨(h c _ (Cert.KernelIdeal.Gen.mem_uc Cert.KernelIdeal.main_arg0 (by decide))).trans (Cert.KernelIdeal.Gen.W4_main_arg0 m ρ c),
        (h c _ (Cert.KernelIdeal.Gen.mem_uc Cert.KernelIdeal.main_arg1 (by decide))).trans (Cert.KernelIdeal.Gen.W4_main_arg1 m ρ c),
        (h c _ (Cert.KernelIdeal.Gen.mem_uc Cert.KernelIdeal.main_arg2 (by decide))).trans (Cert.KernelIdeal.Gen.W4_main_arg2 m ρ c),
        (h c _ (Cert.KernelIdeal.Gen.mem_uc Cert.KernelIdeal.main_arg3 (by decide))).trans (Cert.KernelIdeal.Gen.W4_main_arg3 m ρ c),
        (h c _ (Cert.KernelIdeal.Gen.mem_uc Cert.KernelIdeal.main_arg4 (by decide))).trans (Cert.KernelIdeal.Gen.W4_main_arg4 m ρ c),
        (h c _ (Cert.KernelIdeal.Gen.mem_uc Cert.KernelIdeal.main_arg5 (by decide))).trans (Cert.KernelIdeal.Gen.W4_main_arg5 m ρ c),
        (h c _ (Cert.KernelIdeal.Gen.mem_uc Cert.KernelIdeal.main_arg6 (by decide))).trans (Cert.KernelIdeal.Gen.W4_main_arg6 m ρ c),
        (h c _ (Cert.KernelIdeal.Gen.mem_uc Cert.KernelIdeal.main_arg7 (by decide))).trans (Cert.KernelIdeal.Gen.W4_main_arg7 m ρ c),
        (h c _ (Cert.KernelIdeal.Gen.mem_uc Cert.KernelIdeal.main_arg8 (by decide))).trans (Cert.KernelIdeal.Gen.W4_main_arg8 m ρ c),
        (h c _ (Cert.KernelIdeal.Gen.mem_uc Cert.KernelIdeal.main_arg9 (by decide))).trans (Cert.KernelIdeal.Gen.W4_main_arg9 m ρ c),
        (h c _ (Cert.KernelIdeal.Gen.mem_uc Cert.KernelIdeal.main_arg10 (by decide))).trans (Cert.KernelIdeal.Gen.W4_main_arg10 m ρ c),
        (h c _ (Cert.KernelIdeal.Gen.mem_uc Cert.KernelIdeal.main_arg11 (by decide))).trans (Cert.KernelIdeal.Gen.W4_main_arg11 m ρ c)⟩
  · refine (θ_run Cert.ReferenceIdeal.defs _ _).mono (fun _ h c => ⟨(h c).1.trans ?_, (h c).2⟩)
      (Cert.ReferenceIdeal.Whole.run_value (F := Ideal) m' ρ')
    obtain ⟨e0, e1, e2, e3, e4, e5, e6, e7, e8, e9, e10, e11⟩ := hagree c
    rw [Cert.ReferenceIdeal.Bridge.result_eq, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
